-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S8x1024x768 .f32) (main_arg1 : FVec F S2304x768 .f32) (main_arg2 : FVec F S768x768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S8x1024x768 : Shape := ⟨3, ![8, 1024, 768]⟩
abbrev S2304x768 : Shape := ⟨2, ![2304, 768]⟩
abbrev S768x768 : Shape := ⟨2, ![768, 768]⟩
abbrev S8192x768 : Shape := ⟨2, ![8192, 768]⟩
abbrev S768x2304 : Shape := ⟨2, ![768, 2304]⟩
abbrev S8192x2304 : Shape := ⟨2, ![8192, 2304]⟩
abbrev S512x768 : Shape := ⟨2, ![512, 768]⟩
abbrev S512x2304 : Shape := ⟨2, ![512, 2304]⟩
abbrev S8x1024x2304 : Shape := ⟨3, ![8, 1024, 2304]⟩
abbrev S1x1024x128 : Shape := ⟨3, ![1, 1024, 128]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 18
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S8192x768, .f32⟩
  | .hbm, ⟨4, _⟩ => ⟨S8192x768, .bf16⟩
  | .hbm, ⟨5, _⟩ => ⟨S768x2304, .f32⟩
  | .hbm, ⟨6, _⟩ => ⟨S768x2304, .bf16⟩
  | .hbm, ⟨7, _⟩ => ⟨S8192x2304, .bf16⟩
  | .hbm, ⟨8, _⟩ => ⟨S8x1024x2304, .bf16⟩
  | .hbm, ⟨9, _⟩ => ⟨S8x1024x768, .bf16⟩
  | .hbm, ⟨10, _⟩ => ⟨S8192x768, .bf16⟩
  | .hbm, ⟨11, _⟩ => ⟨S768x768, .f32⟩
  | .hbm, ⟨12, _⟩ => ⟨S768x768, .bf16⟩
  | .hbm, ⟨13, _⟩ => ⟨S8192x768, .f32⟩
  | .hbm, ⟨14, _⟩ => ⟨S8x1024x768, .f32⟩
  | .local _ .vmem, ⟨0, _⟩ => ⟨S512x768, .bf16⟩
  | .local _ .vmem, ⟨1, _⟩ => ⟨S512x768, .bf16⟩
  | .local _ .vmem, ⟨2, _⟩ => ⟨S768x2304, .bf16⟩
  | .local _ .vmem, ⟨3, _⟩ => ⟨S512x2304, .bf16⟩
  | .local _ .vmem, ⟨4, _⟩ => ⟨S512x2304, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S512x768, .bf16⟩
  | .local _ .vmem, ⟨14, _⟩ => ⟨S512x768, .bf16⟩
  | .local _ .vmem, ⟨15, _⟩ => ⟨S768x768, .bf16⟩
  | .local _ .vmem, ⟨16, _⟩ => ⟨S512x768, .f32⟩
  | .local _ .vmem, ⟨17, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S8x1024x768_S8192x768 : S8x1024x768.ShapeCasts S8192x768
  bitsLt_bf16_f32 : FTy.bits .bf16 < FTy.bits .f32
  transposes_S2304x768_S768x2304_1_0 : S2304x768.Transposes [1, 0] S768x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S8x1024x2304 : S8192x2304.ShapeCasts S8x1024x2304
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S768x768_S768x768_1_0 : S768x768.Transposes [1, 0] S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S8192x768_S8x1024x768 : S8192x768.ShapeCasts S8x1024x768
  dot_S512x768_S768x2304_S512x2304_1_0_0_1_n_n_wf : DotDims.WF S512x768 S768x2304 S512x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .bf16 = 32 ∨ (Rect.block (s := S8192x768) S512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .bf16 = 32 ∨ (Rect.block (s := S8192x2304) S512x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x2304.size a
  hwx1_0 : ∀ i : grid1.Coords, EltTy.bits .bf16 = 32 ∨ (Rect.block (s := S8x1024x2304) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x2304.size a
  hwx1_1 : ∀ i : grid1.Coords, EltTy.bits .bf16 = 32 ∨ (Rect.block (s := S8x1024x2304) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x2304.size a
  hwx1_2 : ∀ i : grid1.Coords, EltTy.bits .bf16 = 32 ∨ (Rect.block (s := S8x1024x2304) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x768.size a
  hwx1_3 : ∀ i : grid1.Coords, EltTy.bits .bf16 = 32 ∨ (Rect.block (s := S8x1024x768) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .bf16 = 32 ∨ (Rect.block (s := S8192x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x768.size a ≤ S8192x768.size a
  hwx2_2 : ∀ i : grid2.Coords, EltTy.bits .f32 = 32 ∨ (Rect.block (s := S8192x768) S512x768.size (cc2_transform_2 i) (hinb2_2 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S8x1024x2304, .f32⟩
  | .hbm, ⟨4, _⟩ => ⟨S8x1024x3x12x64, .f32⟩
  | .hbm, ⟨5, _⟩ => ⟨S3x8x12x1024x64, .f32⟩
  | .hbm, ⟨6, _⟩ => ⟨S1x8x12x1024x64, .f32⟩
  | .hbm, ⟨7, _⟩ => ⟨S8x12x1024x64, .f32⟩
  | .hbm, ⟨8, _⟩ => ⟨S1x8x12x1024x64, .f32⟩
  | .hbm, ⟨9, _⟩ => ⟨S8x12x1024x64, .f32⟩
  | .hbm, ⟨10, _⟩ => ⟨S1x8x12x1024x64, .f32⟩
  | .hbm, ⟨11, _⟩ => ⟨S8x12x1024x64, .f32⟩
  | .hbm, ⟨12, _⟩ => ⟨S8x12x1024x1024, .f32⟩
  | .hbm, ⟨13, _⟩ => ⟨S_, .f32⟩
  | .hbm, ⟨14, _⟩ => ⟨S8x12x1024x1024, .f32⟩
  | .hbm, ⟨15, _⟩ => ⟨S8x12x1024x1024, .f32⟩
  | .hbm, ⟨16, _⟩ => ⟨S_, .f32⟩
  | .hbm, ⟨17, _⟩ => ⟨S8x12x1024, .f32⟩
  | .hbm, ⟨18, _⟩ => ⟨S_, .f32⟩
  | .hbm, ⟨19, _⟩ => ⟨S8x12x1024, .f32⟩
  | .hbm, ⟨20, _⟩ => ⟨S8x12x1024, .f32⟩
  | .hbm, ⟨21, _⟩ => ⟨S8x12x1024x1, .f32⟩
  | .hbm, ⟨22, _⟩ => ⟨S8x12x1024x1024, .f32⟩
  | .hbm, ⟨23, _⟩ => ⟨S8x12x1024x1024, .f32⟩
  | .hbm, ⟨24, _⟩ => ⟨S8x12x1024x1024, .f32⟩
  | .hbm, ⟨25, _⟩ => ⟨S_, .f32⟩
  | .hbm, ⟨26, _⟩ => ⟨S8x12x1024, .f32⟩
  | .hbm, ⟨27, _⟩ => ⟨S8x12x1024x1, .f32⟩
  | .hbm, ⟨28, _⟩ => ⟨S8x12x1024x1024, .f32⟩
  | .hbm, ⟨29, _⟩ => ⟨S8x12x1024x1024, .f32⟩
  | .hbm, ⟨30, _⟩ => ⟨S8x12x1024x64, .f32⟩
  | .hbm, ⟨31, _⟩ => ⟨S8x1024x12x64, .f32⟩
  | .hbm, ⟨32, _⟩ => ⟨S8x1024x768, .f32⟩
  | .hbm, ⟨33, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.BData.lean ====
/-
  The proof data of the three pallas_calls, at any float instance, over a PARAMETER `V`: what the core's unscoped
  buffers hold when a call is entered.
  * call 0 (the q/k/v projection): grid of 16 points; point `t` reads rows `512·t … 512·t+511` of the activations
    (window 0), the whole weight (window 1, its block index constant), and leaves in the output's staging buffer the
    product of the two blocks (`out0_2`).
  * call 1 (attention): grid 8 × 6, point `(b, hp)`; windows 0, 1, 2 all read the SAME array, the projected q/k/v,
    at the column blocks `hp`, `6 + hp`, `12 + hp` of batch `b` (128 columns: two heads), and the body leaves
    the two heads' softmax-weighted values side by side (`out1_3`). The one array is held by the three input
    windows at three shares that compose to the full share.
  * call 2 (the output projection): as call 0, on the attention output and the second weight (`out2_2`).
-/
import proofs.«140358_j16647293239989_2_alg».proof.Proof.Gen.Kernel.Launch
import proofs.«140358_j16647293239989_2_alg».proof.Proof.Gen.Kernel.Skeleton
import proofs.«140358_j16647293239989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S512x2304 := Rect.unit (s := S512x2304) ![0, 0] S512x2304.size inb_S512x2304_S512x2304_0_0

/-- The output's staging buffer after the body: one store of the whole block, the product of the two input blocks. -/
def out0_2 (x0 : Vec F S512x768 .bf16) (x1 : Vec F S768x2304 .bf16) : Vec F S512x2304 .bf16 :=
  View.canon [⟨r0_2, k0_pay1 (View.ld x0 r0_0) (View.ld x1 r0_1)⟩]

/-- The proof data of call 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x1024x128 := Rect.unit (s := S1x1024x128) ![0, 0, 0] S1x1024x128.size inb_S1x1024x128_S1x1024x128_0_0_0

/-- The output's staging buffer after the body: one store of the whole block, the two heads' results side by side. -/
def out1_3 (x0 x1 x2 : Vec F S1x1024x128 .bf16) : Vec F S1x1024x128 .bf16 :=
  View.canon [⟨r1_0, k1_pay1 (k1_pay5 (View.ld x0 r1_0) (View.ld x1 r1_0) (View.ld x2 r1_0))
    (k1_pay6 (View.ld x0 r1_0) (View.ld x1 r1_0) (View.ld x2 r1_0))⟩]

/-- The shares at which the three input windows hold their one array. -/
def q1 : Fin cfg1.W → PosShare TreeShare
  | ⟨0, _⟩ => (fullShare : PosShare TreeShare).left
  | ⟨1, _⟩ => (fullShare : PosShare TreeShare).right.left
  | ⟨2, _⟩ => (fullShare : PosShare TreeShare).right.right
  | ⟨3, _⟩ => fullShare

/-- The proof data of call 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Call 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0

/-- The output's staging buffer after the body: one store of the whole block, the product of the two input blocks. -/
def out2_2 (x0 : Vec F S512x768 .bf16) (x1 : Vec F S768x768 .bf16) : Vec F S512x768 .f32 :=
  View.canon [⟨r2_0, k2_pay1 (View.ld x0 r2_0) (View.ld x1 r2_1)⟩]

/-- The proof data of call 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Hand

end
-- ==== Proof.BChain.lean ====
/-
  What core `c`'s unscoped buffers hold between the items of the program, from the launch memory `m`:
  a stretch of host operations folds them over the contents before it; a pallas_call changes exactly its output
  array, which ends at what the call's write-backs leave (`Dat.arrAt … N` of the call's proof data at the contents
  the call was entered from).
-/
import proofs.«140358_j16647293239989_2_alg».proof.Proof.BData

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- At launch. -/
abbrev W0 : Dev nD → Valuation τ sig (Elt F) := fun c b => m (c, b)
/-- After the first host stretch: call 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its output array at what its sixteen write-backs leave. -/
def W2 (c : Dev nD) : Valuation τ sig (Elt F) :=
  Function.update (W1 m c) (Proc.devRef .tc main_v4) ((dat0 (V1 m) c).arrAt 2 cfg0.N)
/-- After the second host stretch: call 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After call 1: its output array at what its forty-eight write-backs leave. -/
def W4 (c : Dev nD) : Valuation τ sig (Elt F) :=
  Function.update (W3 m c) (Proc.devRef .tc main_v6) ((dat1 (V3 m) c).arrAt 3 cfg1.N)
/-- After the third host stretch: call 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After call 2: its output array at what its sixteen write-backs leave. -/
def W6 (c : Dev nD) : Valuation τ sig (Elt F) :=
  Function.update (W5 m c) (Proc.devRef .tc main_v10) ((dat2 (V5 m) c).arrAt 2 cfg2.N)
/-- After the last host stretch: the return. -/
abbrev W7 : Dev nD → Valuation τ sig (Elt F) := fun c => StableHlo.after hostOps3 (W6 m c)

theorem W2_out (c : Dev nD) : W2 m c (Proc.devRef .tc main_v4) = (dat0 (V1 m) c).arrAt 2 cfg0.N := Function.update_self ..
theorem W2_of_ne (c : Dev nD) (b : Ref sig .tc) (hb : b ≠ main_v4) : W2 m c (Proc.devRef .tc b) = W1 m c (Proc.devRef .tc b) :=
  Function.update_of_ne (StableHlo.devRef_ne_of_ne hb) ..
theorem W4_out (c : Dev nD) : W4 m c (Proc.devRef .tc main_v6) = (dat1 (V3 m) c).arrAt 3 cfg1.N := Function.update_self ..
theorem W4_of_ne (c : Dev nD) (b : Ref sig .tc) (hb : b ≠ main_v6) : W4 m c (Proc.devRef .tc b) = W3 m c (Proc.devRef .tc b) :=
  Function.update_of_ne (StableHlo.devRef_ne_of_ne hb) ..
theorem W6_out (c : Dev nD) : W6 m c (Proc.devRef .tc main_v10) = (dat2 (V5 m) c).arrAt 2 cfg2.N := Function.update_self ..
theorem W6_of_ne (c : Dev nD) (b : Ref sig .tc) (hb : b ≠ main_v10) : W6 m c (Proc.devRef .tc b) = W5 m c (Proc.devRef .tc b) :=
  Function.update_of_ne (StableHlo.devRef_ne_of_ne hb) ..

end Cert.Kernel.Hand

end
-- ==== Proof.BArgs.lean ====
/-
  No item of the program writes an argument: a stretch of host operations writes only its own results, and a
  pallas_call changes only its output array. So a buffer that is none of those — each of the three arguments in
  particular — holds at the return what the launch memory held.
-/
import proofs.«140358_j16647293239989_2_alg».proof.Proof.BChain
import proofs.«140358_j16647293239989_2_alg».proof.Proof.Gen.Kernel.Regions

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- A buffer that no host stretch writes and that is no call's output array passes all seven items unchanged. -/
theorem W7_of_unwritten (c : Dev nD) (b : Ref sig .tc) (h0 : b ∉ hostOps0_W) (h1 : b ≠ main_v4) (h2 : b ∉ hostOps1_W)
    (h3 : b ≠ main_v6) (h4 : b ∉ hostOps2_W) (h5 : b ≠ main_v10) (h6 : b ∉ hostOps3_W) :
    W7 m c (Proc.devRef .tc b) = m ((c : Thread nD τ).loc b) :=
  (StableHlo.after_of_writes_sub hostOps3 _ hostOps3_writes h6).trans <|
  (W6_of_ne m c b h5).trans <|
  (StableHlo.after_of_writes_sub hostOps2 _ hostOps2_writes h4).trans <|
  (W4_of_ne m c b h3).trans <|
  (StableHlo.after_of_writes_sub hostOps1 _ hostOps1_writes h2).trans <|
  (W2_of_ne m c b h1).trans <|
  (StableHlo.after_of_writes_sub hostOps0 _ hostOps0_writes h0).trans rfl

/-- The activations reach the return as launched. -/
theorem W7_main_arg0 (c : Dev nD) : W7 m c (Proc.devRef .tc main_arg0) = m ((c : Thread nD τ).loc main_arg0) :=
  W7_of_unwritten m c main_arg0 (by decide) (by decide) (by decide) (by decide) (by decide) (by decide) (by decide)

/-- The stacked q/k/v weight reaches the return as launched. -/
theorem W7_main_arg1 (c : Dev nD) : W7 m c (Proc.devRef .tc main_arg1) = m ((c : Thread nD τ).loc main_arg1) :=
  W7_of_unwritten m c main_arg1 (by decide) (by decide) (by decide) (by decide) (by decide) (by decide) (by decide)

/-- The output-projection weight reaches the return as launched. -/
theorem W7_main_arg2 (c : Dev nD) : W7 m c (Proc.devRef .tc main_arg2) = m ((c : Thread nD τ).loc main_arg2) :=
  W7_of_unwritten m c main_arg2 (by decide) (by decide) (by decide) (by decide) (by decide) (by decide) (by decide)

end Cert.Kernel.Hand

end
-- ==== Proof.BBody0.lean ====
/-
  Call 0 (the q/k/v projection) at any entry contents `V`: what the body finds in its input windows' buffers at a
  point, the body's triple (two whole-block loads, one whole-block store of their product), and the pipeline's
  body obligation over the proof data `dat0 V c`.
-/
import proofs.«140358_j16647293239989_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Window 0 is fetched at every point; its current staging buffer holds its block there. Window 1's block index is
    constant: it is fetched at the first point only, and at every later point the buffer still holds that block, which
    is the point's own since the index has not moved. One statement covers both: an input window the body leaves in
    place holds, at every point, what a fetch there would put in its buffer. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's one store covers the output's buffer -/

theorem cover0_2 (p0 : Vec F S512x2304 .bf16) (y : S512x2304.Idx) :
    ∃ pc ∈ ([⟨r0_2, p0⟩] : List (View.Piece (Elt F) S512x2304 .bf16)), y ∈ pc.1.set :=
  View.cover_of_tiled [⟨r0_2, p0⟩] S512x2304.size (by rfl) y

/-! ## The body's triple -/

set_option maxHeartbeats 1000000 in
/-- The body on whole staging memrefs, the inputs' at read contents `x0`, `x1` and the output's at anything, runs to
    the continuation holding the inputs' as they were and the output's at the product of the two (`out0_2`): two
    whole-block loads, a load of the output's buffer that is not used, and one whole-block store. -/
theorem sound_kernel0 (c : Dev nD) (E : Set ℕ) (i : grid0.Coords)
    (arg1 : Memref sig .tc .vmem S512x768 .bf16) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .bf16) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  Call 1 (attention) at any entry contents `V`: what the body finds in its three input windows' buffers at a point,
  the body's triple (three whole-block loads, one whole-block store of the two heads' results side by side), and the
  pipeline's body obligation over the proof data `dat1 V c`.
-/
import proofs.«140358_j16647293239989_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Each of the three input windows is fetched at every point; its current staging buffer holds its block there:
    the column block `hp`, `6 + hp` or `12 + hp` of batch `b` of the one array the three windows read. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's one store covers the output's buffer -/

theorem cover1_3 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

/-! ## The body's triple -/

set_option maxHeartbeats 1000000 in
/-- The body on whole staging memrefs, the three inputs' at read contents `x0`, `x1`, `x2`
    and the output's at anything, runs to the continuation holding the inputs' as they were and the output's at
    the two heads' results side by side (`out1_3`): three whole-block loads in the body's first part, which returns
    the two heads' values; a load of the output's buffer that is not used; one whole-block store. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BBody2.lean ====
/-
  Call 2 (the output projection) at any entry contents `V`: what the body finds in its input windows' buffers at a
  point, the body's triple (two whole-block loads, one whole-block store of their product), and the pipeline's
  body obligation over the proof data `dat2 V c`.
-/
import proofs.«140358_j16647293239989_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Window 0 is fetched at every point; its current staging buffer holds its block there. Window 1's block index is
    constant: it is fetched at the first point only, and at every later point the buffer still holds that block, which
    is the point's own since the index has not moved. One statement covers both: an input window the body leaves in
    place holds, at every point, what a fetch there would put in its buffer. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body's one store covers the output's buffer -/

theorem cover2_2 (p0 : Vec F S512x768 .f32) (y : S512x768.Idx) :
    ∃ pc ∈ ([⟨r2_0, p0⟩] : List (View.Piece (Elt F) S512x768 .f32)), y ∈ pc.1.set :=
  View.cover_of_tiled [⟨r2_0, p0⟩] S512x768.size (by rfl) y

/-! ## The body's triple -/

set_option maxHeartbeats 1000000 in
/-- The body on whole staging memrefs, the inputs' at read contents `x0`, `x1` and the output's at anything, runs to
    the continuation holding the inputs' as they were and the output's at the product of the two (`out2_2`): two
    whole-block loads, a load of the output's buffer that is not used, and one whole-block store. -/
theorem sound_kernel2 (c : Dev nD) (E : Set ℕ) (i : grid2.Coords)
    (arg1 : Memref sig .tc .vmem S512x768 .bf16) (harg1 : arg1.IsWhole) (arg2 : Memref sig .tc .vmem S768x768 .bf16) (harg2 : arg2.IsWhole)
    (arg3 : Memref sig .tc .vmem S512x768 .f32) (harg3 : arg3.IsWhole)
    (x0 : Vec F S512x768 .bf16) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BShare1.lean ====
/-
  Call 1's windows share an array: its three input windows read the one array of projected q/k/v. The proof data hold
  that array at three shares that compose to the full share; here the windowed arrays of the call are identified with
  the two distinct buffers behind them, each held whole at the full share.
-/
import proofs.«140358_j16647293239989_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 1's arrays: two buffers behind four windows -/

/-- A buffer held whole at the full share is the same buffer held three times, at the left half, the left half of the
    right half and the right half of the right half of the full share: a share is the composite of its two halves. -/
theorem pointsTo_thirds {ℓ : Loc nD τ sig} (f : Buf (Elt F) ℓ) :
    ((ℓ ↦{fullShare} f) : sProp 𝕄)
      = iprop((ℓ ↦{(fullShare : PosShare TreeShare).left} f) ∗ (ℓ ↦{(fullShare : PosShare TreeShare).right.left} f)
          ∗ (ℓ ↦{(fullShare : PosShare TreeShare).right.right} f)) := by
  have h1 : ((ℓ ↦{fullShare} f) : sProp 𝕄)
      ⊣⊢ iprop((ℓ ↦{(fullShare : PosShare TreeShare).left} f) ∗ (ℓ ↦{(fullShare : PosShare TreeShare).right} f)) :=
    pointsTo_share (PosShare.mem_left_op_right fullShare)
  have h2 : ((ℓ ↦{(fullShare : PosShare TreeShare).right} f) : sProp 𝕄)
      ⊣⊢ iprop((ℓ ↦{(fullShare : PosShare TreeShare).right.left} f) ∗ (ℓ ↦{(fullShare : PosShare TreeShare).right.right} f)) :=
    pointsTo_share (PosShare.mem_left_op_right (fullShare : PosShare TreeShare).right)
  rw [BI.equiv_iff.mp ⟨h1.1, h1.2⟩, BI.equiv_iff.mp ⟨h2.1, h2.2⟩]

/-- Separating conjunction re-associated, as an equation. -/
theorem sep_assoc_eq (P Q R : sProp 𝕄) : iprop((P ∗ Q) ∗ R) = iprop(P ∗ (Q ∗ R)) :=
  BI.equiv_iff.mp ⟨sep_assoc, sep_assoc'⟩

/-- The buffers of call 1 that are no window's array hold the same at two valuations that agree off the arrays. -/
theorem unscopedRest1_congr (c : Dev nD) (X X' : (b : Ref sig .tc) → Buf (Elt F) ((c : Thread nD τ).loc b))
    (h : ∀ b, b ∉ Finset.univ.image (Pipeline.arrRef spec1) → X' b = X b) :
    (Pipeline.unscopedRest (Ix := Unit) (Name := ℕ) (U := UR sig nD τ) (Lvl := ℕ) spec1 c X' : sProp 𝕄)
      = Pipeline.unscopedRest spec1 c X := by
  unfold Pipeline.unscopedRest
  exact bigSep_congr fun b hb => by rw [h b (Finset.mem_sdiff.mp hb).2]

/-- The distinct buffers behind call 1's four windows are two: the projected q/k/v, which the three input windows
    read, and the output. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v5) ↦{fullShare} X main_v5) ∗ (((c : Thread nD τ).loc main_v6) ↦{fullShare} X main_v6)) := by
  unfold Pipeline.arrBufs; exact bigSep_eq_bigSepL_of_eq [main_v5, main_v6] (by decide) (by decide) _

/-- The shares the proof data of call 1 hold the windows' arrays at. -/
theorem share1_0 (c : Dev nD) : (dat1 V c).share 0 = (fullShare : PosShare TreeShare).left := rfl
theorem share1_1 (c : Dev nD) : (dat1 V c).share 1 = (fullShare : PosShare TreeShare).right.left := rfl
theorem share1_2 (c : Dev nD) : (dat1 V c).share 2 = (fullShare : PosShare TreeShare).right.right := rfl
theorem share1_3 (c : Dev nD) : (dat1 V c).share 3 = fullShare := rfl

/-- Call 1's windowed arrays, window by window: the one input array at the three windows' shares, the output's whole. -/
theorem arrays1_eq (c : Dev nD) (G : (w : Fin cfg1.W) → Buf (Elt F) ((cfg1.win w).arr.view.loc (c : Thread nD τ))) :
    (dat1 V c).arrays G
      = iprop((((c : Thread nD τ).loc main_v5) ↦{(fullShare : PosShare TreeShare).left} G 0)
          ∗ (((c : Thread nD τ).loc main_v5) ↦{(fullShare : PosShare TreeShare).right.left} G 1)
          ∗ (((c : Thread nD τ).loc main_v5) ↦{(fullShare : PosShare TreeShare).right.right} G 2)
          ∗ (((c : Thread nD τ).loc main_v6) ↦{fullShare} G 3)) := by
  unfold Dat.arrays
  refine (bigSep_congr (Ψ := fun w => (((c : Thread nD τ).loc (Pipeline.arrRef spec1 w)) ↦{(dat1 V c).share w} G w : sProp 𝕄))
    fun w _ => by rw [(arr_whole1 w).set_eq_univ]).trans ?_
  rw [bigSep_W1, share1_0, share1_1, share1_2, share1_3]

/-- The two buffers, each whole at the full share at contents `X`, ARE call 1's windowed arrays at any contents `G` that
    read `X` at each window's array: the input array's full share is the three windows' shares composed. -/
theorem arrays1_eq_arrBufs (c : Dev nD) (X : (b : Ref sig .tc) → Buf (Elt F) ((c : Thread nD τ).loc b))
    (G : (w : Fin cfg1.W) → Buf (Elt F) ((cfg1.win w).arr.view.loc (c : Thread nD τ)))
    (hG : ∀ w, G w = X (Pipeline.arrRef spec1 w)) :
    (dat1 V c).arrays G = (Pipeline.arrBufs (Ix := Unit) (Name := ℕ) (U := UR sig nD τ) (Lvl := ℕ) spec1 c X : sProp 𝕄) := by
  rw [arrays1_eq, arrBufs1_eq, pointsTo_thirds (X main_v5), hG 0, hG 1, hG 2, hG 3, sep_assoc_eq, sep_assoc_eq]

end Cert.Kernel.Hand

end
-- ==== Proof.BRun.lean ====
/-
  THE RUN. @main is seven items: a stretch of host operations, the q/k/v projection (call 0), a reshape, attention
  (call 1), a reshape and the second weight's preparation, the output projection (call 2), and a last reshape. Over the
  thread state "every unscoped buffer of the core held whole at the contents between two items (`W0 … W7`), the
  generator register at some state, nothing owed", a host stretch folds its operations over the contents, and a call
  splits its windows' arrays out of the unscoped buffers, runs its pipeline from the proof data at the entry
  contents, and puts the arrays back at the contents after. Every weakly fair execution of @main therefore terminates,
  nothing faulting, with every unscoped buffer at `W7 m c`; and since no host operation and no call writes an
  argument array, `W7` read at an argument is the launch memory.
-/
import proofs.«140358_j16647293239989_2_alg».proof.Proof.BChain
import proofs.«140358_j16647293239989_2_alg».proof.Proof.BArgs
import proofs.«140358_j16647293239989_2_alg».proof.Proof.BBody0
import proofs.«140358_j16647293239989_2_alg».proof.Proof.BBody1
import proofs.«140358_j16647293239989_2_alg».proof.Proof.BBody2
import proofs.«140358_j16647293239989_2_alg».proof.Proof.BShare1
import proofs.«140358_j16647293239989_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each call, read at the TensorCore's references -/

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b

/-- At call 0's exit each of its arrays holds what the pipeline leaves — an input array what it held at entry, the
    output array what its write-backs leave — and every other buffer what it held at entry. -/
theorem hF0 (c : Dev nD) : ∀ w : Fin 3, (dat0 (V1 m) c).arrAt w cfg0.N = V2 m c (Pipeline.arrRef spec0 w)
  | ⟨0, _⟩ => ((dat0 (V1 m) c).arrAt_in 0 rfl _).trans ((A_eq0 (V1 m) c 0).trans (W2_of_ne m c (Pipeline.arrRef spec0 0) (by decide)).symm)
  | ⟨1, _⟩ => ((dat0 (V1 m) c).arrAt_in 1 rfl _).trans ((A_eq0 (V1 m) c 1).trans (W2_of_ne m c (Pipeline.arrRef spec0 1) (by decide)).symm)
  | ⟨2, _⟩ => (W2_out m c).symm
  | ⟨_ + 3, h⟩ => absurd h (Nat.not_lt.2 (Nat.le_add_left _ _))
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

/-- At call 1's exit: the three input windows' one array as at entry, the output array at what the write-backs leave. -/
theorem hF1 (c : Dev nD) : ∀ w : Fin 4, (dat1 (V3 m) c).arrAt w cfg1.N = V4 m c (Pipeline.arrRef spec1 w)
  | ⟨0, _⟩ => ((dat1 (V3 m) c).arrAt_in 0 rfl _).trans ((A_eq1 (V3 m) c 0).trans (W4_of_ne m c (Pipeline.arrRef spec1 0) (by decide)).symm)
  | ⟨1, _⟩ => ((dat1 (V3 m) c).arrAt_in 1 rfl _).trans ((A_eq1 (V3 m) c 1).trans (W4_of_ne m c (Pipeline.arrRef spec1 1) (by decide)).symm)
  | ⟨2, _⟩ => ((dat1 (V3 m) c).arrAt_in 2 rfl _).trans ((A_eq1 (V3 m) c 2).trans (W4_of_ne m c (Pipeline.arrRef spec1 2) (by decide)).symm)
  | ⟨3, _⟩ => (W4_out m c).symm
  | ⟨_ + 4, h⟩ => absurd h (Nat.not_lt.2 (Nat.le_add_left _ _))
theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

/-- At call 2's exit each of its arrays holds what the pipeline leaves — an input array what it held at entry, the
    output array what its write-backs leave — and every other buffer what it held at entry. -/
theorem hF2 (c : Dev nD) : ∀ w : Fin 3, (dat2 (V5 m) c).arrAt w cfg2.N = V6 m c (Pipeline.arrRef spec2 w)
  | ⟨0, _⟩ => ((dat2 (V5 m) c).arrAt_in 0 rfl _).trans ((A_eq2 (V5 m) c 0).trans (W6_of_ne m c (Pipeline.arrRef spec2 0) (by decide)).symm)
  | ⟨1, _⟩ => ((dat2 (V5 m) c).arrAt_in 1 rfl _).trans ((A_eq2 (V5 m) c 1).trans (W6_of_ne m c (Pipeline.arrRef spec2 1) (by decide)).symm)
  | ⟨2, _⟩ => (W6_out m c).symm
  | ⟨_ + 3, h⟩ => absurd h (Nat.not_lt.2 (Nat.le_add_left _ _))
theorem hrest2 (c : Dev nD) : ∀ b, b ∉ Finset.univ.image (Pipeline.arrRef spec2) → V6 m c b = V5 m c b :=
  fun b hb => W6_of_ne m c b fun e => hb (Finset.mem_image.mpr ⟨2, Finset.mem_univ _, e.symm⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the operations folded over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W7`, the generator register at some state. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- CALL 0 over the thread state: entered from every unscoped buffer at `W1`, left at `W2`. Its three arrays (distinct
    buffers) are split out of the unscoped buffers at entry and put back at the exit contents; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W3`, left at `W4`. Its four windows stand on two
    buffers: at entry the two are split out of the unscoped buffers and the one the three input windows read is shared
    out among them (the three shares compose to the full share); at exit the three shares, all still at the entry
    contents, rejoin, and the two buffers go back at the exit contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (V3 m c)) :=
      Entails.of_eq <| (Pipeline.unscopedBufs_held c (W3 m c)).symm.trans <|
        (Pipeline.unscopedBufs_split₀ cfgs 1 winFacts₀1.arr_unscoped c (V3 m c)).trans <|
        congrArg (fun A => iprop(A ∗ Pipeline.unscopedRest spec1 c (V3 m c)))
          (arrays1_eq_arrBufs (V3 m) c (V3 m c) ((pdats m 1 c).arrAt · 0) (fun _ => rfl)).symm
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (StableHlo.held (c : Thread nD τ) (Pipeline.ucRefs τ sig) (W4 m c) : sProp 𝕄) :=
      Entails.of_eq <| Eq.symm <| (Pipeline.unscopedBufs_held c (W4 m c)).symm.trans <|
        (Pipeline.unscopedBufs_split₀ cfgs 1 winFacts₀1.arr_unscoped c (V4 m c)).trans <|
        congrArg₂ (fun A B => iprop(A ∗ B))
          (arrays1_eq_arrBufs (V3 m) c (V4 m c) ((pdats m 1 c).arrAt · cfg1.N) (hF1 m c)).symm
          (unscopedRest1_congr c (V3 m c) (V4 m c) (hrest1 m c))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W5`, left at `W6`. Its three arrays (distinct
    buffers) are split out of the unscoped buffers at entry and put back at the exit contents; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from the contents before it, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and every final state has every unscoped buffer of every core at `W7 m c`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched -/

/-- THE FRAME: every weakly fair execution of @main terminates, nothing faulting, and every final state has the three
    argument arrays as launched: no item of @main writes an argument, so the last contents read at an argument are the
    launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.Kernel.Hand

end
-- ==== Proof.IData.lean ====
/-
  The proof data of the three pallas_calls, at any float instance, over a PARAMETER `V`: what the core's unscoped
  buffers hold when a call is entered.
  * call 0 (the q/k/v projection): grid of 16 points; point `t` reads rows `512·t … 512·t+511` of the activations
    (window 0), the whole weight (window 1, its block index constant), and leaves in the output's staging buffer the
    product of the two blocks (`out0_2`).
  * call 1 (attention): grid 8 × 6, point `(b, hp)`; windows 0, 1, 2 all read the SAME array, the projected q/k/v,
    at the column blocks `hp`, `6 + hp`, `12 + hp` of batch `b` (128 columns: two heads), and the body leaves
    the two heads' softmax-weighted values side by side (`out1_3`). The one array is held by the three input
    windows at three shares that compose to the full share.
  * call 2 (the output projection): as call 0, on the attention output and the second weight (`out2_2`).
-/
import proofs.«140358_j16647293239989_2_alg».proof.Proof.Gen.KernelIdeal.Launch
import proofs.«140358_j16647293239989_2_alg».proof.Proof.Gen.KernelIdeal.Skeleton
import proofs.«140358_j16647293239989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S512x2304 := Rect.unit (s := S512x2304) ![0, 0] S512x2304.size inb_S512x2304_S512x2304_0_0

/-- The output's staging buffer after the body: one store of the whole block, the product of the two input blocks. -/
def out0_2 (x0 : Vec F S512x768 .bf16) (x1 : Vec F S768x2304 .bf16) : Vec F S512x2304 .bf16 :=
  View.canon [⟨r0_2, k0_pay1 (View.ld x0 r0_0) (View.ld x1 r0_1)⟩]

/-- The proof data of call 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x1024x128 := Rect.unit (s := S1x1024x128) ![0, 0, 0] S1x1024x128.size inb_S1x1024x128_S1x1024x128_0_0_0

/-- The output's staging buffer after the body: one store of the whole block, the two heads' results side by side. -/
def out1_3 (x0 x1 x2 : Vec F S1x1024x128 .bf16) : Vec F S1x1024x128 .bf16 :=
  View.canon [⟨r1_0, k1_pay1 (k1_pay5 (View.ld x0 r1_0) (View.ld x1 r1_0) (View.ld x2 r1_0))
    (k1_pay6 (View.ld x0 r1_0) (View.ld x1 r1_0) (View.ld x2 r1_0))⟩]

/-- The shares at which the three input windows hold their one array. -/
def q1 : Fin cfg1.W → PosShare TreeShare
  | ⟨0, _⟩ => (fullShare : PosShare TreeShare).left
  | ⟨1, _⟩ => (fullShare : PosShare TreeShare).right.left
  | ⟨2, _⟩ => (fullShare : PosShare TreeShare).right.right
  | ⟨3, _⟩ => fullShare

/-- The proof data of call 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Call 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0

/-- The output's staging buffer after the body: one store of the whole block, the product of the two input blocks. -/
def out2_2 (x0 : Vec F S512x768 .bf16) (x1 : Vec F S768x768 .bf16) : Vec F S512x768 .f32 :=
  View.canon [⟨r2_0, k2_pay1 (View.ld x0 r2_0) (View.ld x1 r2_1)⟩]

/-- The proof data of call 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Hand

end
-- ==== Proof.IChain.lean ====
/-
  What core `c`'s unscoped buffers hold between the items of the program, from the launch memory `m`:
  a stretch of host operations folds them over the contents before it; a pallas_call changes exactly its output
  array, which ends at what the call's write-backs leave (`Dat.arrAt … N` of the call's proof data at the contents
  the call was entered from).
-/
import proofs.«140358_j16647293239989_2_alg».proof.Proof.IData

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- At launch. -/
abbrev W0 : Dev nD → Valuation τ sig (Elt F) := fun c b => m (c, b)
/-- After the first host stretch: call 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its output array at what its sixteen write-backs leave. -/
def W2 (c : Dev nD) : Valuation τ sig (Elt F) :=
  Function.update (W1 m c) (Proc.devRef .tc main_v4) ((dat0 (V1 m) c).arrAt 2 cfg0.N)
/-- After the second host stretch: call 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After call 1: its output array at what its forty-eight write-backs leave. -/
def W4 (c : Dev nD) : Valuation τ sig (Elt F) :=
  Function.update (W3 m c) (Proc.devRef .tc main_v6) ((dat1 (V3 m) c).arrAt 3 cfg1.N)
/-- After the third host stretch: call 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After call 2: its output array at what its sixteen write-backs leave. -/
def W6 (c : Dev nD) : Valuation τ sig (Elt F) :=
  Function.update (W5 m c) (Proc.devRef .tc main_v10) ((dat2 (V5 m) c).arrAt 2 cfg2.N)
/-- After the last host stretch: the return. -/
abbrev W7 : Dev nD → Valuation τ sig (Elt F) := fun c => StableHlo.after hostOps3 (W6 m c)

theorem W2_out (c : Dev nD) : W2 m c (Proc.devRef .tc main_v4) = (dat0 (V1 m) c).arrAt 2 cfg0.N := Function.update_self ..
theorem W2_of_ne (c : Dev nD) (b : Ref sig .tc) (hb : b ≠ main_v4) : W2 m c (Proc.devRef .tc b) = W1 m c (Proc.devRef .tc b) :=
  Function.update_of_ne (StableHlo.devRef_ne_of_ne hb) ..
theorem W4_out (c : Dev nD) : W4 m c (Proc.devRef .tc main_v6) = (dat1 (V3 m) c).arrAt 3 cfg1.N := Function.update_self ..
theorem W4_of_ne (c : Dev nD) (b : Ref sig .tc) (hb : b ≠ main_v6) : W4 m c (Proc.devRef .tc b) = W3 m c (Proc.devRef .tc b) :=
  Function.update_of_ne (StableHlo.devRef_ne_of_ne hb) ..
theorem W6_out (c : Dev nD) : W6 m c (Proc.devRef .tc main_v10) = (dat2 (V5 m) c).arrAt 2 cfg2.N := Function.update_self ..
theorem W6_of_ne (c : Dev nD) (b : Ref sig .tc) (hb : b ≠ main_v10) : W6 m c (Proc.devRef .tc b) = W5 m c (Proc.devRef .tc b) :=
  Function.update_of_ne (StableHlo.devRef_ne_of_ne hb) ..

end Cert.KernelIdeal.Hand

end
-- ==== Proof.IArgs.lean ====
/-
  No item of the program writes an argument: a stretch of host operations writes only its own results, and a
  pallas_call changes only its output array. So a buffer that is none of those — each of the three arguments in
  particular — holds at the return what the launch memory held.
-/
import proofs.«140358_j16647293239989_2_alg».proof.Proof.IChain
import proofs.«140358_j16647293239989_2_alg».proof.Proof.Gen.KernelIdeal.Regions

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- A buffer that no host stretch writes and that is no call's output array passes all seven items unchanged. -/
theorem W7_of_unwritten (c : Dev nD) (b : Ref sig .tc) (h0 : b ∉ hostOps0_W) (h1 : b ≠ main_v4) (h2 : b ∉ hostOps1_W)
    (h3 : b ≠ main_v6) (h4 : b ∉ hostOps2_W) (h5 : b ≠ main_v10) (h6 : b ∉ hostOps3_W) :
    W7 m c (Proc.devRef .tc b) = m ((c : Thread nD τ).loc b) :=
  (StableHlo.after_of_writes_sub hostOps3 _ hostOps3_writes h6).trans <|
  (W6_of_ne m c b h5).trans <|
  (StableHlo.after_of_writes_sub hostOps2 _ hostOps2_writes h4).trans <|
  (W4_of_ne m c b h3).trans <|
  (StableHlo.after_of_writes_sub hostOps1 _ hostOps1_writes h2).trans <|
  (W2_of_ne m c b h1).trans <|
  (StableHlo.after_of_writes_sub hostOps0 _ hostOps0_writes h0).trans rfl

/-- The activations reach the return as launched. -/
theorem W7_main_arg0 (c : Dev nD) : W7 m c (Proc.devRef .tc main_arg0) = m ((c : Thread nD τ).loc main_arg0) :=
  W7_of_unwritten m c main_arg0 (by decide) (by decide) (by decide) (by decide) (by decide) (by decide) (by decide)

/-- The stacked q/k/v weight reaches the return as launched. -/
theorem W7_main_arg1 (c : Dev nD) : W7 m c (Proc.devRef .tc main_arg1) = m ((c : Thread nD τ).loc main_arg1) :=
  W7_of_unwritten m c main_arg1 (by decide) (by decide) (by decide) (by decide) (by decide) (by decide) (by decide)

/-- The output-projection weight reaches the return as launched. -/
theorem W7_main_arg2 (c : Dev nD) : W7 m c (Proc.devRef .tc main_arg2) = m ((c : Thread nD τ).loc main_arg2) :=
  W7_of_unwritten m c main_arg2 (by decide) (by decide) (by decide) (by decide) (by decide) (by decide) (by decide)

end Cert.KernelIdeal.Hand

end
-- ==== Proof.IBody0.lean ====
/-
  Call 0 (the q/k/v projection) at any entry contents `V`: what the body finds in its input windows' buffers at a
  point, the body's triple (two whole-block loads, one whole-block store of their product), and the pipeline's
  body obligation over the proof data `dat0 V c`.
-/
import proofs.«140358_j16647293239989_2_alg».proof.Proof.IData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Window 0 is fetched at every point; its current staging buffer holds its block there. Window 1's block index is
    constant: it is fetched at the first point only, and at every later point the buffer still holds that block, which
    is the point's own since the index has not moved. One statement covers both: an input window the body leaves in
    place holds, at every point, what a fetch there would put in its buffer. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's one store covers the output's buffer -/

theorem cover0_2 (p0 : Vec F S512x2304 .bf16) (y : S512x2304.Idx) :
    ∃ pc ∈ ([⟨r0_2, p0⟩] : List (View.Piece (Elt F) S512x2304 .bf16)), y ∈ pc.1.set :=
  View.cover_of_tiled [⟨r0_2, p0⟩] S512x2304.size (by rfl) y

/-! ## The body's triple -/

set_option maxHeartbeats 1000000 in
/-- The body on whole staging memrefs, the inputs' at read contents `x0`, `x1` and the output's at anything, runs to
    the continuation holding the inputs' as they were and the output's at the product of the two (`out0_2`): two
    whole-block loads, a load of the output's buffer that is not used, and one whole-block store. -/
theorem sound_kernel0 (c : Dev nD) (E : Set ℕ) (i : grid0.Coords)
    (arg1 : Memref sig .tc .vmem S512x768 .bf16) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .bf16) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IBody1.lean ====
/-
  Call 1 (attention) at any entry contents `V`: what the body finds in its three input windows' buffers at a point,
  the body's triple (three whole-block loads, one whole-block store of the two heads' results side by side), and the
  pipeline's body obligation over the proof data `dat1 V c`.
-/
import proofs.«140358_j16647293239989_2_alg».proof.Proof.IData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Each of the three input windows is fetched at every point; its current staging buffer holds its block there:
    the column block `hp`, `6 + hp` or `12 + hp` of batch `b` of the one array the three windows read. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's one store covers the output's buffer -/

theorem cover1_3 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

/-! ## The body's triple -/

set_option maxHeartbeats 1000000 in
/-- The body on whole staging memrefs, the three inputs' at read contents `x0`, `x1`, `x2`
    and the output's at anything, runs to the continuation holding the inputs' as they were and the output's at
    the two heads' results side by side (`out1_3`): three whole-block loads in the body's first part, which returns
    the two heads' values; a load of the output's buffer that is not used; one whole-block store. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IBody2.lean ====
/-
  Call 2 (the output projection) at any entry contents `V`: what the body finds in its input windows' buffers at a
  point, the body's triple (two whole-block loads, one whole-block store of their product), and the pipeline's
  body obligation over the proof data `dat2 V c`.
-/
import proofs.«140358_j16647293239989_2_alg».proof.Proof.IData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Window 0 is fetched at every point; its current staging buffer holds its block there. Window 1's block index is
    constant: it is fetched at the first point only, and at every later point the buffer still holds that block, which
    is the point's own since the index has not moved. One statement covers both: an input window the body leaves in
    place holds, at every point, what a fetch there would put in its buffer. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body's one store covers the output's buffer -/

theorem cover2_2 (p0 : Vec F S512x768 .f32) (y : S512x768.Idx) :
    ∃ pc ∈ ([⟨r2_0, p0⟩] : List (View.Piece (Elt F) S512x768 .f32)), y ∈ pc.1.set :=
  View.cover_of_tiled [⟨r2_0, p0⟩] S512x768.size (by rfl) y

/-! ## The body's triple -/

set_option maxHeartbeats 1000000 in
/-- The body on whole staging memrefs, the inputs' at read contents `x0`, `x1` and the output's at anything, runs to
    the continuation holding the inputs' as they were and the output's at the product of the two (`out2_2`): two
    whole-block loads, a load of the output's buffer that is not used, and one whole-block store. -/
theorem sound_kernel2 (c : Dev nD) (E : Set ℕ) (i : grid2.Coords)
    (arg1 : Memref sig .tc .vmem S512x768 .bf16) (harg1 : arg1.IsWhole) (arg2 : Memref sig .tc .vmem S768x768 .bf16) (harg2 : arg2.IsWhole)
    (arg3 : Memref sig .tc .vmem S512x768 .f32) (harg3 : arg3.IsWhole)
    (x0 : Vec F S512x768 .bf16) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IShare1.lean ====
/-
  Call 1's windows share an array: its three input windows read the one array of projected q/k/v. The proof data hold
  that array at three shares that compose to the full share; here the windowed arrays of the call are identified with
  the two distinct buffers behind them, each held whole at the full share.
-/
import proofs.«140358_j16647293239989_2_alg».proof.Proof.IData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 1's arrays: two buffers behind four windows -/

/-- A buffer held whole at the full share is the same buffer held three times, at the left half, the left half of the
    right half and the right half of the right half of the full share: a share is the composite of its two halves. -/
theorem pointsTo_thirds {ℓ : Loc nD τ sig} (f : Buf (Elt F) ℓ) :
    ((ℓ ↦{fullShare} f) : sProp 𝕄)
      = iprop((ℓ ↦{(fullShare : PosShare TreeShare).left} f) ∗ (ℓ ↦{(fullShare : PosShare TreeShare).right.left} f)
          ∗ (ℓ ↦{(fullShare : PosShare TreeShare).right.right} f)) := by
  have h1 : ((ℓ ↦{fullShare} f) : sProp 𝕄)
      ⊣⊢ iprop((ℓ ↦{(fullShare : PosShare TreeShare).left} f) ∗ (ℓ ↦{(fullShare : PosShare TreeShare).right} f)) :=
    pointsTo_share (PosShare.mem_left_op_right fullShare)
  have h2 : ((ℓ ↦{(fullShare : PosShare TreeShare).right} f) : sProp 𝕄)
      ⊣⊢ iprop((ℓ ↦{(fullShare : PosShare TreeShare).right.left} f) ∗ (ℓ ↦{(fullShare : PosShare TreeShare).right.right} f)) :=
    pointsTo_share (PosShare.mem_left_op_right (fullShare : PosShare TreeShare).right)
  rw [BI.equiv_iff.mp ⟨h1.1, h1.2⟩, BI.equiv_iff.mp ⟨h2.1, h2.2⟩]

/-- Separating conjunction re-associated, as an equation. -/
theorem sep_assoc_eq (P Q R : sProp 𝕄) : iprop((P ∗ Q) ∗ R) = iprop(P ∗ (Q ∗ R)) :=
  BI.equiv_iff.mp ⟨sep_assoc, sep_assoc'⟩

/-- The buffers of call 1 that are no window's array hold the same at two valuations that agree off the arrays. -/
theorem unscopedRest1_congr (c : Dev nD) (X X' : (b : Ref sig .tc) → Buf (Elt F) ((c : Thread nD τ).loc b))
    (h : ∀ b, b ∉ Finset.univ.image (Pipeline.arrRef spec1) → X' b = X b) :
    (Pipeline.unscopedRest (Ix := Unit) (Name := ℕ) (U := UR sig nD τ) (Lvl := ℕ) spec1 c X' : sProp 𝕄)
      = Pipeline.unscopedRest spec1 c X := by
  unfold Pipeline.unscopedRest
  exact bigSep_congr fun b hb => by rw [h b (Finset.mem_sdiff.mp hb).2]

/-- The distinct buffers behind call 1's four windows are two: the projected q/k/v, which the three input windows
    read, and the output. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v5) ↦{fullShare} X main_v5) ∗ (((c : Thread nD τ).loc main_v6) ↦{fullShare} X main_v6)) := by
  unfold Pipeline.arrBufs; exact bigSep_eq_bigSepL_of_eq [main_v5, main_v6] (by decide) (by decide) _

/-- The shares the proof data of call 1 hold the windows' arrays at. -/
theorem share1_0 (c : Dev nD) : (dat1 V c).share 0 = (fullShare : PosShare TreeShare).left := rfl
theorem share1_1 (c : Dev nD) : (dat1 V c).share 1 = (fullShare : PosShare TreeShare).right.left := rfl
theorem share1_2 (c : Dev nD) : (dat1 V c).share 2 = (fullShare : PosShare TreeShare).right.right := rfl
theorem share1_3 (c : Dev nD) : (dat1 V c).share 3 = fullShare := rfl

/-- Call 1's windowed arrays, window by window: the one input array at the three windows' shares, the output's whole. -/
theorem arrays1_eq (c : Dev nD) (G : (w : Fin cfg1.W) → Buf (Elt F) ((cfg1.win w).arr.view.loc (c : Thread nD τ))) :
    (dat1 V c).arrays G
      = iprop((((c : Thread nD τ).loc main_v5) ↦{(fullShare : PosShare TreeShare).left} G 0)
          ∗ (((c : Thread nD τ).loc main_v5) ↦{(fullShare : PosShare TreeShare).right.left} G 1)
          ∗ (((c : Thread nD τ).loc main_v5) ↦{(fullShare : PosShare TreeShare).right.right} G 2)
          ∗ (((c : Thread nD τ).loc main_v6) ↦{fullShare} G 3)) := by
  unfold Dat.arrays
  refine (bigSep_congr (Ψ := fun w => (((c : Thread nD τ).loc (Pipeline.arrRef spec1 w)) ↦{(dat1 V c).share w} G w : sProp 𝕄))
    fun w _ => by rw [(arr_whole1 w).set_eq_univ]).trans ?_
  rw [bigSep_W1, share1_0, share1_1, share1_2, share1_3]

/-- The two buffers, each whole at the full share at contents `X`, ARE call 1's windowed arrays at any contents `G` that
    read `X` at each window's array: the input array's full share is the three windows' shares composed. -/
theorem arrays1_eq_arrBufs (c : Dev nD) (X : (b : Ref sig .tc) → Buf (Elt F) ((c : Thread nD τ).loc b))
    (G : (w : Fin cfg1.W) → Buf (Elt F) ((cfg1.win w).arr.view.loc (c : Thread nD τ)))
    (hG : ∀ w, G w = X (Pipeline.arrRef spec1 w)) :
    (dat1 V c).arrays G = (Pipeline.arrBufs (Ix := Unit) (Name := ℕ) (U := UR sig nD τ) (Lvl := ℕ) spec1 c X : sProp 𝕄) := by
  rw [arrays1_eq, arrBufs1_eq, pointsTo_thirds (X main_v5), hG 0, hG 1, hG 2, hG 3, sep_assoc_eq, sep_assoc_eq]

end Cert.KernelIdeal.Hand

end
-- ==== Proof.IRun.lean ====
/-
  THE RUN. @main is seven items: a stretch of host operations, the q/k/v projection (call 0), a reshape, attention
  (call 1), a reshape and the second weight's preparation, the output projection (call 2), and a last reshape. Over the
  thread state "every unscoped buffer of the core held whole at the contents between two items (`W0 … W7`), the
  generator register at some state, nothing owed", a host stretch folds its operations over the contents, and a call
  splits its windows' arrays out of the unscoped buffers, runs its pipeline from the proof data at the entry
  contents, and puts the arrays back at the contents after. Every weakly fair execution of @main therefore terminates,
  nothing faulting, with every unscoped buffer at `W7 m c`; and since no host operation and no call writes an
  argument array, `W7` read at an argument is the launch memory.
-/
import proofs.«140358_j16647293239989_2_alg».proof.Proof.IChain
import proofs.«140358_j16647293239989_2_alg».proof.Proof.IArgs
import proofs.«140358_j16647293239989_2_alg».proof.Proof.IBody0
import proofs.«140358_j16647293239989_2_alg».proof.Proof.IBody1
import proofs.«140358_j16647293239989_2_alg».proof.Proof.IBody2
import proofs.«140358_j16647293239989_2_alg».proof.Proof.IShare1
import proofs.«140358_j16647293239989_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each call, read at the TensorCore's references -/

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b

/-- At call 0's exit each of its arrays holds what the pipeline leaves — an input array what it held at entry, the
    output array what its write-backs leave — and every other buffer what it held at entry. -/
theorem hF0 (c : Dev nD) : ∀ w : Fin 3, (dat0 (V1 m) c).arrAt w cfg0.N = V2 m c (Pipeline.arrRef spec0 w)
  | ⟨0, _⟩ => ((dat0 (V1 m) c).arrAt_in 0 rfl _).trans ((A_eq0 (V1 m) c 0).trans (W2_of_ne m c (Pipeline.arrRef spec0 0) (by decide)).symm)
  | ⟨1, _⟩ => ((dat0 (V1 m) c).arrAt_in 1 rfl _).trans ((A_eq0 (V1 m) c 1).trans (W2_of_ne m c (Pipeline.arrRef spec0 1) (by decide)).symm)
  | ⟨2, _⟩ => (W2_out m c).symm
  | ⟨_ + 3, h⟩ => absurd h (Nat.not_lt.2 (Nat.le_add_left _ _))
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

/-- At call 1's exit: the three input windows' one array as at entry, the output array at what the write-backs leave. -/
theorem hF1 (c : Dev nD) : ∀ w : Fin 4, (dat1 (V3 m) c).arrAt w cfg1.N = V4 m c (Pipeline.arrRef spec1 w)
  | ⟨0, _⟩ => ((dat1 (V3 m) c).arrAt_in 0 rfl _).trans ((A_eq1 (V3 m) c 0).trans (W4_of_ne m c (Pipeline.arrRef spec1 0) (by decide)).symm)
  | ⟨1, _⟩ => ((dat1 (V3 m) c).arrAt_in 1 rfl _).trans ((A_eq1 (V3 m) c 1).trans (W4_of_ne m c (Pipeline.arrRef spec1 1) (by decide)).symm)
  | ⟨2, _⟩ => ((dat1 (V3 m) c).arrAt_in 2 rfl _).trans ((A_eq1 (V3 m) c 2).trans (W4_of_ne m c (Pipeline.arrRef spec1 2) (by decide)).symm)
  | ⟨3, _⟩ => (W4_out m c).symm
  | ⟨_ + 4, h⟩ => absurd h (Nat.not_lt.2 (Nat.le_add_left _ _))
theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

/-- At call 2's exit each of its arrays holds what the pipeline leaves — an input array what it held at entry, the
    output array what its write-backs leave — and every other buffer what it held at entry. -/
theorem hF2 (c : Dev nD) : ∀ w : Fin 3, (dat2 (V5 m) c).arrAt w cfg2.N = V6 m c (Pipeline.arrRef spec2 w)
  | ⟨0, _⟩ => ((dat2 (V5 m) c).arrAt_in 0 rfl _).trans ((A_eq2 (V5 m) c 0).trans (W6_of_ne m c (Pipeline.arrRef spec2 0) (by decide)).symm)
  | ⟨1, _⟩ => ((dat2 (V5 m) c).arrAt_in 1 rfl _).trans ((A_eq2 (V5 m) c 1).trans (W6_of_ne m c (Pipeline.arrRef spec2 1) (by decide)).symm)
  | ⟨2, _⟩ => (W6_out m c).symm
  | ⟨_ + 3, h⟩ => absurd h (Nat.not_lt.2 (Nat.le_add_left _ _))
theorem hrest2 (c : Dev nD) : ∀ b, b ∉ Finset.univ.image (Pipeline.arrRef spec2) → V6 m c b = V5 m c b :=
  fun b hb => W6_of_ne m c b fun e => hb (Finset.mem_image.mpr ⟨2, Finset.mem_univ _, e.symm⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the operations folded over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W7`, the generator register at some state. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- CALL 0 over the thread state: entered from every unscoped buffer at `W1`, left at `W2`. Its three arrays (distinct
    buffers) are split out of the unscoped buffers at entry and put back at the exit contents; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W3`, left at `W4`. Its four windows stand on two
    buffers: at entry the two are split out of the unscoped buffers and the one the three input windows read is shared
    out among them (the three shares compose to the full share); at exit the three shares, all still at the entry
    contents, rejoin, and the two buffers go back at the exit contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (V3 m c)) :=
      Entails.of_eq <| (Pipeline.unscopedBufs_held c (W3 m c)).symm.trans <|
        (Pipeline.unscopedBufs_split₀ cfgs 1 winFacts₀1.arr_unscoped c (V3 m c)).trans <|
        congrArg (fun A => iprop(A ∗ Pipeline.unscopedRest spec1 c (V3 m c)))
          (arrays1_eq_arrBufs (V3 m) c (V3 m c) ((pdats m 1 c).arrAt · 0) (fun _ => rfl)).symm
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (StableHlo.held (c : Thread nD τ) (Pipeline.ucRefs τ sig) (W4 m c) : sProp 𝕄) :=
      Entails.of_eq <| Eq.symm <| (Pipeline.unscopedBufs_held c (W4 m c)).symm.trans <|
        (Pipeline.unscopedBufs_split₀ cfgs 1 winFacts₀1.arr_unscoped c (V4 m c)).trans <|
        congrArg₂ (fun A B => iprop(A ∗ B))
          (arrays1_eq_arrBufs (V3 m) c (V4 m c) ((pdats m 1 c).arrAt · cfg1.N) (hF1 m c)).symm
          (unscopedRest1_congr c (V3 m c) (V4 m c) (hrest1 m c))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W5`, left at `W6`. Its three arrays (distinct
    buffers) are split out of the unscoped buffers at entry and put back at the exit contents; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from the contents before it, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and every final state has every unscoped buffer of every core at `W7 m c`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched -/

/-- THE FRAME: every weakly fair execution of @main terminates, nothing faulting, and every final state has the three
    argument arrays as launched: no item of @main writes an argument, so the last contents read at an argument are the
    launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Hand

end
-- ==== Proof.IRead.lean ====
/-
  The arrays the three pallas_calls read and leave, at the extended reals, typed as the functions of an index they are:
  for a parameter `V` (the core's unscoped buffers when a call is entered), the matrices calls 0 and 2 multiply, the
  array call 1 reads, and each call's output array after its last write-back.
-/
import proofs.«140358_j16647293239989_2_alg».proof.Proof.IData
import Idealize.ShloMosaic.PureOps.Ideal

noncomputable section

namespace Cert.KernelIdeal.Hand

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b)) (c : Dev nD)

/-- Call 0's operands: the folded activations [8192,768] and the transposed weight [768,2304]. -/
abbrev rV1 : S8192x768.Idx → EReal := V c main_v1
abbrev rV3 : S768x2304.Idx → EReal := V c main_v3
/-- Call 1's operand: the projected q/k/v [8,1024,2304]. -/
abbrev rV5 : S8x1024x2304.Idx → EReal := V c main_v5
/-- Call 2's operands: the folded attention output [8192,768] and the transposed weight [768,768]. -/
abbrev rV7 : S8192x768.Idx → EReal := V c main_v7
abbrev rV9 : S768x768.Idx → EReal := V c main_v9
/-- Each call's output array after its last write-back. -/
abbrev fin0 : S8192x2304.Idx → EReal := (dat0 (F := Ideal) V c).arrAt 2 cfg0.N
abbrev fin1 : S8x1024x768.Idx → EReal := (dat1 (F := Ideal) V c).arrAt 3 cfg1.N
abbrev fin2 : S8192x768.Idx → EReal := (dat2 (F := Ideal) V c).arrAt 2 cfg2.N

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.IVal0.lean ====
/-
  What the first (q/k/v projection) matrix-product call leaves in its output array, at the extended reals.

  The call walks 16 grid points. Point t loads rows 512·t … 512·t + 511 of the left array (an [8192, 768] matrix)
  and the whole right array (a [768, 2304] matrix), multiplies the two blocks into a zero accumulator, narrows the
  float format (no change of value at the extended reals) and stores the [512, 2304] result as rows 512·t … 512·t + 511
  of the output. Entry (p, e) of a point's result is Σ_k L(512·t + p, k) · R(k, e): the same sum the product of the two
  WHOLE arrays has at (512·t + p, e). Every output row r lies in the block of exactly the point r / 512, so after the
  last point the output array is the product of the two arrays the call found, entry by entry.
-/
import proofs.«140358_j16647293239989_2_alg».proof.Proof.IData
import proofs.«140358_j16647293239989_2_alg».proof.Proof.IRead
import proofs.«140358_j16647293239989_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-- The offsets (0, 0) of a whole-block load or store. -/
theorem zero_off0 : (![0, 0] : Fin 2 → Nat) = fun _ => 0 := funext fun a => by fin_cases a <;> rfl

/-- The product of an [8192, 768] array and a [768, 2304] array, entry by entry. -/
def prod0 (a : S8192x768.Idx → EReal) (b : S768x2304.Idx → EReal) : S8192x2304.Idx → EReal :=
  fun i => ∑ k : Fin 768, a (ix2 (i 0 : Fin 8192) k) * b (ix2 k (i 1 : Fin 2304))

/-- The product array at entry (r, o). -/
theorem prod0_apply (a : S8192x768.Idx → EReal) (b : S768x2304.Idx → EReal) (r : Fin 8192) (o : Fin 2304) :
    prod0 a b (ix2 r o) = ∑ k : Fin 768, a (ix2 r k) * b (ix2 k o) := rfl

/-- The body's stored value at entry (p, e) of the block: row p of the left block against column e of the right
    block; the change of float format after the product is the identity on the extended reals. -/
theorem pay0_apply (x0 : Vec Ideal S512x768 .bf16) (x1 : Vec Ideal S768x2304 .bf16) (p : Fin 512) (e : Fin 2304) :
    (k0_pay1 x0 x1 : S512x2304.Idx → EReal) (ix2 p e) = ∑ k : Fin 768, x0 (ix2 p k) * x1 (ix2 k e) := by
  unfold k0_pay1
  simp only [shapeCast_self]
  exact matmul_plain_zero_apply (φ₁ := .bf16) (φ₂ := .bf16) 512 768 2304 none x0 x1 p e

/-- If the left block is rows n·512 … n·512 + 511 of `a` and the right block is all of `b`, entry `j` of the body's
    stored value is the product array's entry n·512 rows further down. -/
theorem point0 (x0 : Vec Ideal S512x768 .bf16) (x1 : Vec Ideal S768x2304 .bf16)
    (a : S8192x768.Idx → EReal) (b : S768x2304.Idx → EReal) (n : Nat)
    (h0 : ∀ (y : S512x768.Idx) (z : S8192x768.Idx), (z 0).val = n * 512 + (y 0).val → (z 1).val = (y 1).val → x0 y = a z)
    (h1 : ∀ y : S768x2304.Idx, x1 y = b y)
    (j : S512x2304.Idx) (i : S8192x2304.Idx) (hi0 : (i 0).val = n * 512 + (j 0).val) (hi1 : (i 1).val = (j 1).val) :
    (k0_pay1 x0 x1 : S512x2304.Idx → EReal) j = prod0 a b i := by
  obtain ⟨p, e, rfl⟩ : ∃ (p : Fin 512) (e : Fin 2304), j = ix2 p e := ⟨j 0, j 1, eq_ix2 j⟩
  rw [pay0_apply]
  unfold prod0
  refine Finset.sum_congr rfl fun k _ => ?_
  have he : (i 1 : Fin 2304) = e := Fin.ext hi1
  rw [h0 (ix2 p k) (ix2 (i 0 : Fin 8192) k) hi0 rfl, h1, he]

/-- The index maps over the grid: point t takes row block t of the left array and of the output, and the whole
    right array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t, entry y, is the left array's entry in row t·512 + y₀, same column. -/
theorem lhs_block0 (c : Dev nD) (t : Fin cfg0.N) (y : S512x768.Idx) (z : S8192x768.Idx)
    (hz0 : (z 0).val = win0_2.index t (0 : Fin 2) * 512 + (y 0).val) (hz1 : (z 1).val = (y 1).val) :
    (iblk0 V c 0 t : Vec Ideal S512x768 .bf16) y = rV1 V c z := by
  obtain ⟨e0, e1, e2, e3, e4, e5⟩ := idx_facts0 t
  unfold iblk0
  rw [View.read_apply]
  show V c main_v1 (((cfg0.win 0).blk t).view.emb y) = V c main_v1 z
  congr 1
  funext a
  apply Fin.ext
  match a with
  | ⟨0, _⟩ => show win0_0.index t (0 : Fin 2) * 512 + 1 * (y 0).val = (z 0).val; omega
  | ⟨1, _⟩ => show win0_0.index t (1 : Fin 2) * 768 + 1 * (y 1).val = (z 1).val; omega

/-- The right window's block at any point is the whole right array. -/
theorem rhs_block0 (c : Dev nD) (t : Fin cfg0.N) (y : S768x2304.Idx) :
    (iblk0 V c 1 t : Vec Ideal S768x2304 .bf16) y = rV3 V c y := by
  obtain ⟨e0, e1, e2, e3, e4, e5⟩ := idx_facts0 t
  unfold iblk0
  rw [View.read_apply]
  show V c main_v3 (((cfg0.win 1).blk t).view.emb y) = V c main_v3 y
  congr 1
  funext a
  apply Fin.ext
  match a with
  | ⟨0, _⟩ => show win0_1.index t (0 : Fin 2) * 768 + 1 * (y 0).val = (y 0).val; omega
  | ⟨1, _⟩ => show win0_1.index t (1 : Fin 2) * 2304 + 1 * (y 1).val = (y 1).val; omega

/-- What point t writes back is block t of the product of the two arrays as the call finds them. -/
theorem flushed0_eq (c : Dev nD) (t : Fin cfg0.N) :
    (dat0 V c).flushed 2 t
      = ((cfg0.win 2).blk t).view.read (Elt Ideal) (prod0 (rV1 V c) (rV3 V c)) := by
  show (cfg0.win 2).cut (grid0.coords t) ((dat0 V c).after 2 t) = _
  rw [after0_2]
  unfold out0_2
  rw [View.canon_unit_zero zero_off0]
  simp only [View.ld_unit_zero (S := S512x768) zero_off0, View.ld_unit_zero (S := S768x2304) zero_off0]
  funext j
  show (k0_pay1 (iblk0 V c 0 t) (iblk0 V c 1 t) : S512x2304.Idx → EReal) j
    = prod0 (rV1 V c) (rV3 V c) (((cfg0.win 2).blk t).view.emb j)
  refine point0 (iblk0 V c 0 t) (iblk0 V c 1 t) (rV1 V c) (rV3 V c) (win0_2.index t (0 : Fin 2))
    (fun y z h0 h1 => lhs_block0 V c t y z h0 h1) (fun y => rhs_block0 V c t y) j _ ?_ ?_
  · show win0_2.index t (0 : Fin 2) * 512 + 1 * (j 0).val = win0_2.index t (0 : Fin 2) * 512 + (j 0).val
    omega
  · obtain ⟨e0, e1, e2, e3, e4, e5⟩ := idx_facts0 t
    show win0_2.index t (1 : Fin 2) * 2304 + 1 * (j 1).val = (j 1).val
    omega

/-- An index of the output array is in point t's block iff each coordinate is in the block's range on its axis. -/
theorem mem_blk0 (t : Fin cfg0.N) (i : S8192x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v4).slice (win0_2.rect t)).set ↔ _
  rw [View.set_slice_whole, Rect.mem_set_unit]
  exact Iff.rfl

/-- Row r of the output lies in the block of point r / 512, and every point writes its block back. -/
theorem cover0 (i : S8192x2304.Idx) :
    ∃ t : Fin cfg0.N, (cfg0.win 2).flush t = true ∧ i ∈ ((cfg0.win 2).blk t).view.set := by
  have hi0 : (i 0).val < 8192 := (i 0).isLt
  have hi1 : (i 1).val < 2304 := (i 1).isLt
  have hN : cfg0.N = 16 := N_0
  let t : Fin cfg0.N := ⟨(i 0).val / 512, by rw [hN]; omega⟩
  obtain ⟨e0, e1, e2, e3, e4, e5⟩ := idx_facts0 t
  have ht : t.val = (i 0).val / 512 := rfl
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

/-- The call's output array after its last point: the product of the two arrays the call found. -/
theorem arr0_eq (c : Dev nD) : fin0 V c = prod0 (rV1 V c) (rV3 V c) :=
  (dat0 V c).arrAt_eq_of_cover 2 (prod0 (rV1 V c) (rV3 V c)) (fun t _ => flushed0_eq V c t) cover0

/-- Entry (r, o) of the call's output array: row r of the left array against column o of the right array. -/
theorem final0 (c : Dev nD) (r : Fin 8192) (o : Fin 2304) :
    fin0 V c (ix2 r o) = ∑ k : Fin 768, rV1 V c (ix2 r k) * rV3 V c (ix2 k o) := by
  rw [arr0_eq]
  rfl

end Cert.KernelIdeal.HandValue

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  The function both programs compute, on the extended reals, over plain coordinates (no program's shapes).

  From activations `x` (batch × token × channel) and a stacked weight `wq` (2304 output rows: three slots — query,
  key, value — of twelve heads of sixty-four lanes each) the projection `qkv b n o = Σ_c x b n c · wq o c`. For a head
  `h`, the score of query token `n` against key token `m` is the dot product of the two 64-lane rows times the scale;
  a row of scores is turned into weights by the softmax (subtract the row's maximum, exponentiate, divide by the row's
  sum), the weights average the value rows, the heads' results sit side by side (column `64·h + d`), and a second
  weight `wp` projects them: `out b n j = Σ_i att b n i · wp j i`.

  The two programs differ in ONE place: one scales the finished dot product (`scoreAfter`), the other scales the query
  row before the dot product (`scoreBefore`). The scale is a nonnegative real, and multiplying by a nonnegative real
  distributes over any sum of extended reals, so the two scores are equal (`scoreBefore_eq`) — no finiteness needed.
-/
import Idealize.ShloMosaic.PureOps.Ideal
import Idealize.ShloMosaic.Lib.ValueIdx
import proofs.«140358_j16647293239989_2_alg».proof.Proof.LibMaxReduce

noncomputable section

namespace Cert.AttnSpec

open Idealize.ShloMosaic Cert.LibMaxReduce

/-- The scale (the word of 0.125 = 64^(-1/2)) and the start value of a row maximum (the word of -∞). -/
abbrev scale : EReal := Ideal.ofBits .f32 0x3E000000#32
abbrev negInf : EReal := Ideal.ofBits .f32 0xFF800000#32

/-- Column of slot `s` (0 query, 1 key, 2 value), head `h`, lane `d` among the 2304 projected columns. -/
def col (s : Fin 3) (h : Fin 12) (d : Fin 64) : Fin 2304 := ⟨s.val * 768 + h.val * 64 + d.val, by omega⟩

theorem col_val (s : Fin 3) (h : Fin 12) (d : Fin 64) : (col s h d).val = s.val * 768 + h.val * 64 + d.val := rfl

/-- The q/k/v projection. -/
def qkv (x : Fin 8 → Fin 1024 → Fin 768 → EReal) (wq : Fin 2304 → Fin 768 → EReal) (b : Fin 8) (n : Fin 1024) (o : Fin 2304) : EReal :=
  ∑ c : Fin 768, x b n c * wq o c

section Attention

variable (Q : Fin 8 → Fin 1024 → Fin 2304 → EReal)

/-- The score with the scale applied to the finished dot product. -/
def scoreAfter (b : Fin 8) (h : Fin 12) (n m : Fin 1024) : EReal :=
  (∑ d : Fin 64, Q b n (col 0 h d) * Q b m (col 1 h d)) * scale

/-- The score with the scale folded into the query row. -/
def scoreBefore (b : Fin 8) (h : Fin 12) (n m : Fin 1024) : EReal :=
  ∑ d : Fin 64, (Q b n (col 0 h d) * scale) * Q b m (col 1 h d)

variable (S : Fin 8 → Fin 12 → Fin 1024 → Fin 1024 → EReal)

/-- A row's maximum, its shifted exponentials, their sum, the weights. -/
def rowMax (b : Fin 8) (h : Fin 12) (n : Fin 1024) : EReal := foldMax negInf (fun m : Fin 1024 => S b h n m)
def expo (b : Fin 8) (h : Fin 12) (n m : Fin 1024) : EReal := Ideal.exp (S b h n m - rowMax S b h n)
def rowSum (b : Fin 8) (h : Fin 12) (n : Fin 1024) : EReal := ∑ m : Fin 1024, expo S b h n m
def weight (b : Fin 8) (h : Fin 12) (n m : Fin 1024) : EReal := Ideal.div (expo S b h n m) (rowSum S b h n)

/-- One head's output row entry: the weights average the value rows. -/
def headOut (b : Fin 8) (h : Fin 12) (n : Fin 1024) (d : Fin 64) : EReal :=
  ∑ m : Fin 1024, weight S b h n m * Q b m (col 2 h d)

/-- The heads side by side: column `i = 64·h + d`. -/
def att (b : Fin 8) (n : Fin 1024) (i : Fin 768) : EReal :=
  headOut Q S b ⟨i.val / 64, by omega⟩ n ⟨i.val % 64, Nat.mod_lt _ (by norm_num)⟩

end Attention

/-- The output projection. -/
def proj (A : Fin 8 → Fin 1024 → Fin 768 → EReal) (wp : Fin 768 → Fin 768 → EReal) (b : Fin 8) (n : Fin 1024) (j : Fin 768) : EReal :=
  ∑ i : Fin 768, A b n i * wp j i

/-- The whole function, the scale applied after the dot product. -/
def out (x : Fin 8 → Fin 1024 → Fin 768 → EReal) (wq : Fin 2304 → Fin 768 → EReal) (wp : Fin 768 → Fin 768 → EReal) :
    Fin 8 → Fin 1024 → Fin 768 → EReal :=
  proj (att (qkv x wq) (scoreAfter (qkv x wq))) wp

/-- The whole function, the scale folded into the query rows. -/
def outBefore (x : Fin 8 → Fin 1024 → Fin 768 → EReal) (wq : Fin 2304 → Fin 768 → EReal) (wp : Fin 768 → Fin 768 → EReal) :
    Fin 8 → Fin 1024 → Fin 768 → EReal :=
  proj (att (qkv x wq) (scoreBefore (qkv x wq))) wp

/-! ## The one law -/

/-- The scale's word denotes the real 1/8. -/
theorem scale_eq : scale = ((0.125 : ℝ) : EReal) := by
  simp [scale, Ideal.ofBits, Ideal.ieee, -EReal.coe_mul]; norm_num

/-- Multiplying by a nonnegative real on the right distributes over a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem scoreBefore_eq (Q : Fin 8 → Fin 1024 → Fin 2304 → EReal) : scoreBefore Q = scoreAfter Q := by
  funext b h n m
  unfold scoreBefore scoreAfter
  rw [scale_eq, sum_mul_coe _ _ _ (by norm_num)]
  refine Finset.sum_congr rfl fun d _ => ?_
  rw [mul_assoc, mul_comm ((0.125 : ℝ) : EReal), ← mul_assoc]

theorem outBefore_eq (x : Fin 8 → Fin 1024 → Fin 768 → EReal) (wq : Fin 2304 → Fin 768 → EReal) (wp : Fin 768 → Fin 768 → EReal) :
    outBefore x wq wp = out x wq wp := by
  unfold outBefore out; rw [scoreBefore_eq]

end Cert.AttnSpec

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.IAttnBody.lean ====
/-
  One grid point of the attention call, read at an index, at the ideal values.

  The call's body works on three [1, 1024, 128] blocks (query, key, value columns of two adjacent heads) and leaves a
  [1, 1024, 128] block. Lanes o … o+63 of a block belong to one head (o = 0 for the first head of the pair, o = 64
  for the second). For one head the body
    • scales the query rows and takes the 64 lanes of each of the three blocks,
    • forms the 1024 × 1024 scores  s(n, m) = Σ_d (q(n, o+d) · scale) · k(m, o+d),
    • turns each row of scores into weights: the row's maximum from -∞, the shifted exponentials, their sum, the
      quotient,
    • averages the value rows:  Σ_m w(n, m) · v(m, o+d).
  The two heads' results are set side by side (lanes 0 … 63 and 64 … 127) and given back their leading unit axis.
  When the three blocks are the columns 128·hp …, 768 + 128·hp …, 1536 + 128·hp … of batch b of one array Q, lane
  l of the result is the specification's attention output at column 128·hp + l: head 2·hp + l / 64, lane l % 64.
-/
import proofs.«140358_j16647293239989_2_alg».proof.Proof.Gen.KernelIdeal.Skeleton
import proofs.«140358_j16647293239989_2_alg».proof.Proof.Spec
import proofs.«140358_j16647293239989_2_alg».proof.Proof.LibMaxReduce
import proofs.«140358_j16647293239989_2_alg».proof.Proof.LibMatmulRhsT
import proofs.«140358_j16647293239989_2_alg».proof.Proof.LibPlainMatmul
import proofs.«140358_j16647293239989_2_alg».proof.Proof.LibKeepdims
import Idealize.ShloMosaic.Lib.ValueLayout

noncomputable section

namespace Cert.KernelIdeal.HandAttn

open Idealize.ShloMosaic Idealize.ShloMosaic.ValueIdx
open Cert.KernelIdeal Cert.KernelIdeal.Gen Cert.LibMaxReduce Cert.LibKeepdims Cert.LibMatmulRhsT
open Cert.AttnSpec (scale negInf)

/-! ## A row-wise softmax of a 1024 × 1024 score matrix -/

section Softmax

variable (s : Fin 1024 → Fin 1024 → EReal)

/-- A row's maximum from -∞, its shifted exponentials, their sum, the weights. -/
def smax (n : Fin 1024) : EReal := foldMax negInf (fun m : Fin 1024 => s n m)
def sexp (n m : Fin 1024) : EReal := Ideal.exp (s n m - smax s n)
def ssum (n : Fin 1024) : EReal := ∑ m : Fin 1024, sexp s n m
def swt (n m : Fin 1024) : EReal := Ideal.div (sexp s n m) (ssum s n)

end Softmax

/-! ## The stages of one head, with the head's first lane o as a parameter -/

/-- Lane d of the head whose lanes start at o. -/
def lane (o : ℕ) (ho : o + 64 ≤ 128) (d : Fin 64) : Fin 128 := ⟨o + d.val, by have := d.isLt; omega⟩

theorem lane_val (o : ℕ) (ho : o + 64 ≤ 128) (d : Fin 64) : (lane o ho d).val = o + d.val := rfl

section Stages

variable (o : ℕ) (ho : o + 64 ≤ 128) (hsl : S1024x128.Slices ![0, o] S1024x64)

/-- The head's scaled query rows, its key rows, its value rows. -/
def qs (x0 : Vec Ideal S1x1024x128 .bf16) : FVec Ideal S1024x64 .bf16 :=
  extractStridedSlice S1024x64 ![0, o] (k1_pay4 x0) hsl
def ks (x1 : Vec Ideal S1x1024x128 .bf16) : FVec Ideal S1024x64 .bf16 :=
  extractStridedSlice S1024x64 ![0, o] (k1_pay2 x1) hsl
def vs (x2 : Vec Ideal S1x1024x128 .bf16) : FVec Ideal S1024x64 .bf16 :=
  extractStridedSlice S1024x64 ![0, o] (k1_pay3 x2) hsl

/-- A column slice of a [1024, 128] matrix read at (n, d): the matrix at (n, o + d). -/
theorem slice_apply (X : FVec Ideal S1024x128 .bf16) (n : Fin 1024) (d : Fin 64) :
    extractStridedSlice S1024x64 ![0, o] X hsl (ix2 n d) = X (ix2 n (lane o ho d)) :=
  extractStridedSlice_apply ![0, o] X hsl (ix2 n d) (ix2 n (lane o ho d)) (fun a => by
    match a with
    | ⟨0, _⟩ => show n.val = 0 + n.val; omega
    | ⟨1, _⟩ => rfl)

theorem qs_apply (x0 : Vec Ideal S1x1024x128 .bf16) (n : Fin 1024) (d : Fin 64) :
    qs o hsl x0 (ix2 n d) = x0 (ix3 (0 : Fin 1) n (lane o ho d)) * scale := by
  refine (slice_apply o ho hsl (k1_pay4 x0) n d).trans ?_
  unfold k1_pay4
  exact congrArg (fun z : EReal => z * scale)
    (shapeCast_1ab_ab_apply x0 shapeCasts_S1x1024x128_S1024x128 n (lane o ho d))

theorem ks_apply (x1 : Vec Ideal S1x1024x128 .bf16) (n : Fin 1024) (d : Fin 64) :
    ks o hsl x1 (ix2 n d) = x1 (ix3 (0 : Fin 1) n (lane o ho d)) := by
  refine (slice_apply o ho hsl (k1_pay2 x1) n d).trans ?_
  unfold k1_pay2
  exact shapeCast_1ab_ab_apply x1 shapeCasts_S1x1024x128_S1024x128 n (lane o ho d)

theorem vs_apply (x2 : Vec Ideal S1x1024x128 .bf16) (n : Fin 1024) (d : Fin 64) :
    vs o hsl x2 (ix2 n d) = x2 (ix3 (0 : Fin 1) n (lane o ho d)) := by
  refine (slice_apply o ho hsl (k1_pay3 x2) n d).trans ?_
  unfold k1_pay3
  exact shapeCast_1ab_ab_apply x2 shapeCasts_S1x1024x128_S1024x128 n (lane o ho d)

end Stages

/-- The scores: the query rows against the key rows, contracting the 64 lanes. -/
def sc (q k : FVec Ideal S1024x64 .bf16) : FVec Ideal S1024x1024 .f32 :=
  matmul dot_S1024x64_S1024x64_S1024x1024_1_1_0_0_n_n none q k (constant S1024x1024 .f32 0x00000000#32)

theorem sc_apply (q k : FVec Ideal S1024x64 .bf16) (n m : Fin 1024) :
    sc q k (ix2 n m) = ∑ d : Fin 64, q (ix2 n d) * k (ix2 m d) :=
  matmul_transposedRhs_zero_apply 1024 64 1024 none q k n m

/-- A row's maximum, kept as a column and spread over the row. -/
def rmax (s : FVec Ideal S1024x1024 .f32) : FVec Ideal S1024x1024 .f32 :=
  broadcastTo S1024x1024
    (shapeCast S1024x1 (multiReduction .maximumf [1] S1024 s 0xFF800000#32 reduces_S1024x1024_S1024 (.inl rfl) rfl)
      shapeCasts_S1024_S1024x1) broadcasts_S1024x1_S1024x1024

/-- The shifted exponentials. -/
def ex (s : FVec Ideal S1024x1024 .f32) : FVec Ideal S1024x1024 .f32 := exp (subf s (rmax s))

/-- A row's sum, kept as a column and spread over the row. -/
def rsum (e : FVec Ideal S1024x1024 .f32) : FVec Ideal S1024x1024 .f32 :=
  broadcastTo S1024x1024
    (shapeCast S1024x1 (multiReduction .add [1] S1024 e 0x00000000#32 reduces_S1024x1024_S1024 (.inl rfl) rfl)
      shapeCasts_S1024_S1024x1) broadcasts_S1024x1_S1024x1024

/-- The weights. -/
def wt (s : FVec Ideal S1024x1024 .f32) : FVec Ideal S1024x1024 .bf16 :=
  truncf .bf16 (divf (ex s) (rsum (ex s))) bitsLt_bf16_f32

theorem rmax_apply (s : FVec Ideal S1024x1024 .f32) (n m : Fin 1024) :
    rmax s (ix2 n m) = smax (fun n m => s (ix2 n m)) n := by
  unfold rmax
  refine (broadcastTo_a1_ab_apply _ broadcasts_S1024x1_S1024x1024 n m (0 : Fin 1)).trans ?_
  refine (shapeCast_a_a1_apply _ shapeCasts_S1024_S1024x1 n (0 : Fin 1)).trans ?_
  exact multiReduction_maximumf_lastAxis_apply s 0xFF800000#32 reduces_S1024x1024_S1024 (.inl rfl) rfl n

theorem ex_apply (s : FVec Ideal S1024x1024 .f32) (n m : Fin 1024) :
    ex s (ix2 n m) = sexp (fun n m => s (ix2 n m)) n m := by
  unfold ex sexp
  exact congrArg (fun z : EReal => Ideal.exp (s (ix2 n m) - z)) (rmax_apply s n m)

theorem rsum_apply (e : FVec Ideal S1024x1024 .f32) (n m : Fin 1024) :
    rsum e (ix2 n m) = ∑ k : Fin 1024, e (ix2 n k) := by
  unfold rsum
  refine (broadcastTo_a1_ab_apply _ broadcasts_S1024x1_S1024x1024 n m (0 : Fin 1)).trans ?_
  refine (shapeCast_a_a1_apply _ shapeCasts_S1024_S1024x1 n (0 : Fin 1)).trans ?_
  exact multiReduction_add_lastAxis_apply e 0x00000000#32 reduces_S1024x1024_S1024 (.inl rfl) rfl n

theorem wt_apply (s : FVec Ideal S1024x1024 .f32) (n m : Fin 1024) :
    wt s (ix2 n m) = swt (fun n m => s (ix2 n m)) n m := by
  unfold wt swt ssum
  show Ideal.div (ex s (ix2 n m)) (rsum (ex s) (ix2 n m)) = _
  rw [rsum_apply, ex_apply]
  exact congrArg (Ideal.div _) (Finset.sum_congr rfl fun k _ => ex_apply s n k)

/-- The weights average the value rows. -/
def hd (w : FVec Ideal S1024x1024 .bf16) (v : FVec Ideal S1024x64 .bf16) : FVec Ideal S1024x64 .f32 :=
  matmul dot_S1024x1024_S1024x64_S1024x64_1_0_0_1_n_n none w v (constant S1024x64 .f32 0x00000000#32)

theorem hd_apply (w : FVec Ideal S1024x1024 .bf16) (v : FVec Ideal S1024x64 .bf16) (n : Fin 1024) (d : Fin 64) :
    hd w v (ix2 n d) = ∑ m : Fin 1024, w (ix2 n m) * v (ix2 m d) :=
  matmul_plain_zero_apply 1024 1024 64 none w v n d

/-! ## One head -/

section Head

variable (o : ℕ) (ho : o + 64 ≤ 128) (hsl : S1024x128.Slices ![0, o] S1024x64)
variable (x0 x1 x2 : Vec Ideal S1x1024x128 .bf16)

/-- The head's score of query token n against key token m, and its output at token n, lane d. -/
def hscore (n m : Fin 1024) : EReal :=
  ∑ d : Fin 64, (x0 (ix3 (0 : Fin 1) n (lane o ho d)) * scale) * x1 (ix3 (0 : Fin 1) m (lane o ho d))
def hout (n : Fin 1024) (d : Fin 64) : EReal :=
  ∑ m : Fin 1024, swt (hscore o ho x0 x1) n m * x2 (ix3 (0 : Fin 1) m (lane o ho d))

/-- The body's arithmetic for the head whose lanes start at o. -/
def headPay : FVec Ideal S1024x64 .f32 := hd (wt (sc (qs o hsl x0) (ks o hsl x1))) (vs o hsl x2)

theorem headPay_apply (n : Fin 1024) (d : Fin 64) : headPay o hsl x0 x1 x2 (ix2 n d) = hout o ho x0 x1 x2 n d := by
  unfold headPay hout
  refine (hd_apply _ _ n d).trans (Finset.sum_congr rfl fun m _ => ?_)
  have hs : (fun n m : Fin 1024 => sc (qs o hsl x0) (ks o hsl x1) (ix2 n m)) = hscore o ho x0 x1 := by
    funext n m
    unfold hscore
    refine (sc_apply _ _ n m).trans (Finset.sum_congr rfl fun e _ => ?_)
    rw [qs_apply o ho hsl, ks_apply o ho hsl]
  rw [wt_apply, hs, vs_apply o ho hsl]

end Head

/-- The two heads of a grid point are the body's two payloads. -/
theorem pay5_eq (x0 x1 x2 : Vec Ideal S1x1024x128 .bf16) :
    k1_pay5 x0 x1 x2 = headPay 0 slices_S1024x128_o0_0_S1024x64 x0 x1 x2 := rfl
theorem pay6_eq (x0 x1 x2 : Vec Ideal S1x1024x128 .bf16) :
    k1_pay6 x0 x1 x2 = headPay 64 slices_S1024x128_o0_64_S1024x64 x0 x1 x2 := rfl

/-! ## The two heads side by side -/

/-- The stored value at (u, n, l): the first head's result for lanes below 64, the second's (at l - 64) from 64 on. -/
theorem pay1_apply (a b : FVec Ideal S1024x64 .f32) (u : Fin 1) (n : Fin 1024) (l : Fin 128) :
    k1_pay1 a b (ix3 u n l)
      = if h : l.val < 64 then a (ix2 n ⟨l.val, h⟩) else b (ix2 n ⟨l.val - 64, by have := l.isLt; omega⟩) := by
  unfold k1_pay1
  refine (shapeCast_ab_1ab_apply _ shapeCasts_S1024x128_S1x1024x128 u n l).trans ?_
  show concatenate S1024x128 1 [⟨S1024x64, a⟩, ⟨S1024x64, b⟩] concatenates_S1024x64_S1024x64_S1024x128_d1 (ix2 n l) = _
  by_cases h : l.val < 64
  · rw [dif_pos h]
    exact concatenate_pair_apply_left 1 a b concatenates_S1024x64_S1024x64_S1024x128_d1 (ix2 n l) rfl (ix2 n ⟨l.val, h⟩)
      (fun c => by
        match c with
        | ⟨0, _⟩ => rfl
        | ⟨1, _⟩ => rfl)
  · rw [dif_neg h]
    exact concatenate_pair_apply_right 1 a b concatenates_S1024x64_S1024x64_S1024x128_d1 (ix2 n l) rfl rfl
      (ix2 n ⟨l.val - 64, by have := l.isLt; omega⟩)
      (fun c hc => by
        match c with
        | ⟨0, _⟩ => rfl
        | ⟨1, _⟩ => exact absurd rfl hc)
      (by show l.val - 64 + 64 = l.val; omega)

/-! ## The blocks read off one array -/

/-- The softmax weights here are the specification's. -/
theorem swt_eq (S : Fin 8 → Fin 12 → Fin 1024 → Fin 1024 → EReal) (b : Fin 8) (h : Fin 12) (n m : Fin 1024) :
    swt (S b h) n m = Cert.AttnSpec.weight S b h n m := rfl

/-- The specification's attention output at column 64·h + d is head h's output at lane d. -/
theorem att_eq (Q : Fin 8 → Fin 1024 → Fin 2304 → EReal) (S : Fin 8 → Fin 12 → Fin 1024 → Fin 1024 → EReal)
    (b : Fin 8) (n : Fin 1024) (i : Fin 768) (h : Fin 12) (d : Fin 64) (hi : i.val = 64 * h.val + d.val) :
    Cert.AttnSpec.att Q S b n i = Cert.AttnSpec.headOut Q S b h n d := by
  unfold Cert.AttnSpec.att
  have e1 : (⟨i.val / 64, by have := i.isLt; omega⟩ : Fin 12) = h :=
    Fin.ext (by show i.val / 64 = h.val; have := d.isLt; omega)
  have e2 : (⟨i.val % 64, Nat.mod_lt _ (by norm_num)⟩ : Fin 64) = d :=
    Fin.ext (by show i.val % 64 = d.val; have := d.isLt; omega)
  rw [e1, e2]

/-- Column 768·s + 128·hp + l of the projected array: slot s, the pair of heads hp, lane l of the pair. -/
def bcol (s : Fin 3) (hp : Fin 6) (l : Fin 128) : Fin 2304 :=
  ⟨s.val * 768 + 128 * hp.val + l.val, by have := s.isLt; have := hp.isLt; have := l.isLt; omega⟩

theorem bcol_val (s : Fin 3) (hp : Fin 6) (l : Fin 128) : (bcol s hp l).val = s.val * 768 + 128 * hp.val + l.val := rfl

section Block

variable (Q : Fin 8 → Fin 1024 → Fin 2304 → EReal) (b : Fin 8) (hp : Fin 6)
variable (x0 x1 x2 : Vec Ideal S1x1024x128 .bf16)
variable (h0 : ∀ (n : Fin 1024) (l : Fin 128), x0 (ix3 (0 : Fin 1) n l) = Q b n (bcol 0 hp l))
variable (h1 : ∀ (n : Fin 1024) (l : Fin 128), x1 (ix3 (0 : Fin 1) n l) = Q b n (bcol 1 hp l))
variable (h2 : ∀ (n : Fin 1024) (l : Fin 128), x2 (ix3 (0 : Fin 1) n l) = Q b n (bcol 2 hp l))

include h0 h1 h2 in
/-- Head e of the pair (lanes 64·e …) is head 2·hp + e of the specification. -/
theorem hout_eq (o : ℕ) (ho : o + 64 ≤ 128) (e : ℕ) (he : o = 64 * e) (n : Fin 1024) (d : Fin 64) :
    hout o ho x0 x1 x2 n d
      = Cert.AttnSpec.headOut Q (Cert.AttnSpec.scoreBefore Q) b ⟨2 * hp.val + e, by have := hp.isLt; omega⟩ n d := by
  have hc : ∀ (s : Fin 3) (d : Fin 64),
      bcol s hp (lane o ho d) = Cert.AttnSpec.col s ⟨2 * hp.val + e, by have := hp.isLt; omega⟩ d := fun s d =>
    Fin.ext (by
      rw [bcol_val, lane_val, Cert.AttnSpec.col_val]
      show s.val * 768 + 128 * hp.val + (o + d.val) = s.val * 768 + (2 * hp.val + e) * 64 + d.val
      omega)
  have hs : hscore o ho x0 x1 = Cert.AttnSpec.scoreBefore Q b ⟨2 * hp.val + e, by have := hp.isLt; omega⟩ := by
    funext n m
    unfold hscore Cert.AttnSpec.scoreBefore
    refine Finset.sum_congr rfl fun d _ => ?_
    rw [h0, h1, hc 0 d, hc 1 d]
  unfold hout Cert.AttnSpec.headOut
  rw [hs]
  refine Finset.sum_congr rfl fun m _ => ?_
  rw [h2, hc 2 d, swt_eq]

include h0 h1 h2 in
/-- THE BLOCK: what the body stores at (u, n, l) is the specification's attention output of batch b, token n, column
    128·hp + l. -/
theorem block_apply (u : Fin 1) (n : Fin 1024) (l : Fin 128) :
    k1_pay1 (k1_pay5 x0 x1 x2) (k1_pay6 x0 x1 x2) (ix3 u n l)
      = Cert.AttnSpec.att Q (Cert.AttnSpec.scoreBefore Q) b n
          ⟨128 * hp.val + l.val, by have := hp.isLt; have := l.isLt; omega⟩ := by
  rw [pay1_apply]
  by_cases h : l.val < 64
  · rw [dif_pos h, pay5_eq, headPay_apply 0 (by omega), hout_eq Q b hp x0 x1 x2 h0 h1 h2 0 (by omega) 0 rfl]
    exact (att_eq Q _ b n _ _ _ (by show 128 * hp.val + l.val = 64 * (2 * hp.val + 0) + l.val; omega)).symm
  · rw [dif_neg h, pay6_eq, headPay_apply 64 (by omega), hout_eq Q b hp x0 x1 x2 h0 h1 h2 64 (by omega) 1 rfl]
    exact (att_eq Q _ b n _ _ _ (by
      show 128 * hp.val + l.val = 64 * (2 * hp.val + 1) + (l.val - 64); have := l.isLt; omega)).symm

end Block

end Cert.KernelIdeal.HandAttn

end
-- ==== Proof.IVal1.lean ====
/-
  What the attention call leaves in its output array, at the ideal values, whatever the core's buffers hold on entry.

  The call's grid is 8 × 6, row-major: point t is batch t / 6 and head pair t % 6. At point t the three input windows
  hold, of the one projected array, batch t / 6, all 1024 tokens, and the 128 columns starting at 128·(t % 6),
  768 + 128·(t % 6) and 1536 + 128·(t % 6); the output window's block is batch t / 6, all tokens, columns
  128·(t % 6) … of the output array. By the block lemma the body leaves there the specification's attention output
  of those rows and columns, so every write-back writes a block of ONE function of the array's index; the 48 blocks
  cover the array (index (b, n, i) lies in the block of point 6·b + i / 128), hence the array ends holding that function.
-/
import proofs.«140358_j16647293239989_2_alg».proof.Proof.IData
import proofs.«140358_j16647293239989_2_alg».proof.Proof.IRead
import proofs.«140358_j16647293239989_2_alg».proof.Proof.IAttnBody
import Idealize.ShloMosaic.Lib.Pipeline.Value

set_option maxRecDepth 16384

noncomputable section

namespace Cert.KernelIdeal.HandAttn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem hz3 : (![0, 0, 0] : Fin 3 → Nat) = fun _ => 0 := funext fun a => by fin_cases a <;> rfl

/-- The projected array the call reads, by plain coordinates. -/
abbrev Qof (c : Dev nD) : Fin 8 → Fin 1024 → Fin 2304 → EReal := fun b n o => rV5 V c (ix3 b n o)

/-- What the output array ends holding: the specification's attention output of the projected array. -/
def G1 (c : Dev nD) : S8x1024x768.Idx → EReal := fun i =>
  Cert.AttnSpec.att (Qof V c) (Cert.AttnSpec.scoreBefore (Qof V c)) (i 0) (i 1) (i 2)

theorem G1_apply (c : Dev nD) (b : Fin 8) (n : Fin 1024) (i : Fin 768) :
    G1 V c (ix3 b n i) = Cert.AttnSpec.att (Qof V c) (Cert.AttnSpec.scoreBefore (Qof V c)) b n i := rfl

/-! ## The grid -/

theorem lt48 (t : Fin cfg1.N) : t.val < 48 := lt_of_lt_of_eq t.isLt (show cfg1.N = 48 from N_1)

/-- A point's batch and its pair of heads. -/
def ptB (t : Fin cfg1.N) : Fin 8 := ⟨t.val / 6, by have := lt48 t; omega⟩
def ptH (t : Fin cfg1.N) : Fin 6 := ⟨t.val % 6, Nat.mod_lt _ (by norm_num)⟩

theorem ptB_val (t : Fin cfg1.N) : (ptB t).val = t.val / 6 := rfl
theorem ptH_val (t : Fin cfg1.N) : (ptH t).val = t.val % 6 := rfl

/-- The printed index maps, decided over the grid: every window's block index is (t / 6, 0, s·6 + t % 6), s the
    window's slot (0 for the output). -/
theorem idx_facts1 : ∀ t : Fin cfg1.N,
    win1_3.index t (0 : Fin 3) = t.val / 6 ∧ win1_3.index t (1 : Fin 3) = 0 ∧ win1_3.index t (2 : Fin 3) = t.val % 6
    ∧ win1_0.index t (0 : Fin 3) = t.val / 6 ∧ win1_0.index t (1 : Fin 3) = 0 ∧ win1_0.index t (2 : Fin 3) = t.val % 6
    ∧ win1_1.index t (0 : Fin 3) = t.val / 6 ∧ win1_1.index t (1 : Fin 3) = 0 ∧ win1_1.index t (2 : Fin 3) = 6 + t.val % 6
    ∧ win1_2.index t (0 : Fin 3) = t.val / 6 ∧ win1_2.index t (1 : Fin 3) = 0 ∧ win1_2.index t (2 : Fin 3) = 12 + t.val % 6 :=
  (by decide +kernel : ∀ t : Fin grid1.N, _)

/-! ## The input blocks, read off the projected array -/

theorem iblk1_0_apply (c : Dev nD) (t : Fin cfg1.N) (n : Fin 1024) (l : Fin 128) :
    (iblk1 V c 0 t : S1x1024x128.Idx → EReal) (ix3 (0 : Fin 1) n l) = Qof V c (ptB t) n (bcol 0 (ptH t) l) := by
  obtain ⟨-, -, -, e0, e1, e2, -⟩ := idx_facts1 t
  show V c main_v5 (((cfg1.win 0).blk t).view.emb (ix3 (0 : Fin 1) n l)) = V c main_v5 (ix3 (ptB t) n (bcol 0 (ptH t) l))
  refine congrArg (V c main_v5) (funext fun a => Fin.ext ?_)
  match a with
  | ⟨0, _⟩ => show win1_0.index t (0 : Fin 3) * 1 + 1 * (0 : ℕ) = t.val / 6; omega
  | ⟨1, _⟩ => show win1_0.index t (1 : Fin 3) * 1024 + 1 * n.val = n.val; omega
  | ⟨2, _⟩ => show win1_0.index t (2 : Fin 3) * 128 + 1 * l.val = 0 * 768 + 128 * (t.val % 6) + l.val; omega

theorem iblk1_1_apply (c : Dev nD) (t : Fin cfg1.N) (n : Fin 1024) (l : Fin 128) :
    (iblk1 V c 1 t : S1x1024x128.Idx → EReal) (ix3 (0 : Fin 1) n l) = Qof V c (ptB t) n (bcol 1 (ptH t) l) := by
  obtain ⟨-, -, -, -, -, -, e0, e1, e2, -⟩ := idx_facts1 t
  show V c main_v5 (((cfg1.win 1).blk t).view.emb (ix3 (0 : Fin 1) n l)) = V c main_v5 (ix3 (ptB t) n (bcol 1 (ptH t) l))
  refine congrArg (V c main_v5) (funext fun a => Fin.ext ?_)
  match a with
  | ⟨0, _⟩ => show win1_1.index t (0 : Fin 3) * 1 + 1 * (0 : ℕ) = t.val / 6; omega
  | ⟨1, _⟩ => show win1_1.index t (1 : Fin 3) * 1024 + 1 * n.val = n.val; omega
  | ⟨2, _⟩ => show win1_1.index t (2 : Fin 3) * 128 + 1 * l.val = 1 * 768 + 128 * (t.val % 6) + l.val; omega

theorem iblk1_2_apply (c : Dev nD) (t : Fin cfg1.N) (n : Fin 1024) (l : Fin 128) :
    (iblk1 V c 2 t : S1x1024x128.Idx → EReal) (ix3 (0 : Fin 1) n l) = Qof V c (ptB t) n (bcol 2 (ptH t) l) := by
  obtain ⟨-, -, -, -, -, -, -, -, -, e0, e1, e2⟩ := idx_facts1 t
  show V c main_v5 (((cfg1.win 2).blk t).view.emb (ix3 (0 : Fin 1) n l)) = V c main_v5 (ix3 (ptB t) n (bcol 2 (ptH t) l))
  refine congrArg (V c main_v5) (funext fun a => Fin.ext ?_)
  match a with
  | ⟨0, _⟩ => show win1_2.index t (0 : Fin 3) * 1 + 1 * (0 : ℕ) = t.val / 6; omega
  | ⟨1, _⟩ => show win1_2.index t (1 : Fin 3) * 1024 + 1 * n.val = n.val; omega
  | ⟨2, _⟩ => show win1_2.index t (2 : Fin 3) * 128 + 1 * l.val = 2 * 768 + 128 * (t.val % 6) + l.val; omega

/-! ## What a point writes back -/

/-- The output block's element (u, n, l) at point t sits at (t / 6, n, 128·(t % 6) + l) of the output array. -/
theorem oblk1_emb (t : Fin cfg1.N) (u : Fin 1) (n : Fin 1024) (l : Fin 128) :
    ((cfg1.win 3).blk t).view.emb (ix3 u n l)
      = (ix3 (ptB t) n (⟨128 * (ptH t).val + l.val, by have := (ptH t).isLt; have := l.isLt; omega⟩ : Fin 768) : S8x1024x768.Idx) := by
  obtain ⟨e0, e1, e2, -⟩ := idx_facts1 t
  refine funext fun a => Fin.ext ?_
  match a with
  | ⟨0, _⟩ => show win1_3.index t (0 : Fin 3) * 1 + 1 * u.val = t.val / 6; have := u.isLt; omega
  | ⟨1, _⟩ => show win1_3.index t (1 : Fin 3) * 1024 + 1 * n.val = n.val; omega
  | ⟨2, _⟩ => show win1_3.index t (2 : Fin 3) * 128 + 1 * l.val = 128 * (t.val % 6) + l.val; omega

/-- WHAT POINT t WRITES BACK is block t of the one function G1. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz3]
  simp only [View.ld_unit_zero (S := S1x1024x128) hz3]
  funext j
  obtain ⟨u, n, l, rfl⟩ : ∃ (u : Fin 1) (n : Fin 1024) (l : Fin 128), j = ix3 u n l := ⟨j 0, j 1, j 2, eq_ix3 j⟩
  show k1_pay1 (k1_pay5 (iblk1 V c 0 t) (iblk1 V c 1 t) (iblk1 V c 2 t)) (k1_pay6 (iblk1 V c 0 t) (iblk1 V c 1 t) (iblk1 V c 2 t))
      (ix3 u n l) = G1 V c (((cfg1.win 3).blk t).view.emb (ix3 u n l))
  rw [oblk1_emb t u n l, G1_apply]
  exact block_apply (Qof V c) (ptB t) (ptH t) (iblk1 V c 0 t) (iblk1 V c 1 t) (iblk1 V c 2 t)
    (iblk1_0_apply V c t) (iblk1_1_apply V c t) (iblk1_2_apply V c t) u n l

/-! ## The cover -/

/-- An index of the output array is in point t's block iff each coordinate is in the block's range on its axis. -/
theorem mem_blk1 (t : Fin cfg1.N) (i : S8x1024x768.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v6).slice (win1_3.rect t)).set ↔ _
  rw [View.set_slice_whole, Rect.mem_set_unit]
  exact Iff.rfl

/-- Every index (b, n, i) of the output array lies in the block of point 6·b + i / 128. -/
theorem cover1 (i : S8x1024x768.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 768 := (i 2).isLt
  have hlt : 6 * (i 0).val + (i 2).val / 128 < cfg1.N := by rw [show cfg1.N = 48 from N_1]; omega
  refine ⟨⟨6 * (i 0).val + (i 2).val / 128, hlt⟩, flush1_3 _, ?_⟩
  rw [mem_blk1]
  obtain ⟨e0, e1, e2, -⟩ := idx_facts1 ⟨6 * (i 0).val + (i 2).val / 128, hlt⟩
  intro a
  match a with
  | ⟨0, _⟩ =>
    show win1_3.index ⟨6 * (i 0).val + (i 2).val / 128, hlt⟩ (0 : Fin 3) * 1 ≤ (i 0).val
      ∧ (i 0).val < win1_3.index ⟨6 * (i 0).val + (i 2).val / 128, hlt⟩ (0 : Fin 3) * 1 + 1
    rw [e0]; show (6 * (i 0).val + (i 2).val / 128) / 6 * 1 ≤ (i 0).val ∧ (i 0).val < (6 * (i 0).val + (i 2).val / 128) / 6 * 1 + 1
    omega
  | ⟨1, _⟩ =>
    show win1_3.index ⟨6 * (i 0).val + (i 2).val / 128, hlt⟩ (1 : Fin 3) * 1024 ≤ (i 1).val
      ∧ (i 1).val < win1_3.index ⟨6 * (i 0).val + (i 2).val / 128, hlt⟩ (1 : Fin 3) * 1024 + 1024
    rw [e1]; omega
  | ⟨2, _⟩ =>
    show win1_3.index ⟨6 * (i 0).val + (i 2).val / 128, hlt⟩ (2 : Fin 3) * 128 ≤ (i 2).val
      ∧ (i 2).val < win1_3.index ⟨6 * (i 0).val + (i 2).val / 128, hlt⟩ (2 : Fin 3) * 128 + 128
    rw [e2]; show (6 * (i 0).val + (i 2).val / 128) % 6 * 128 ≤ (i 2).val ∧ (i 2).val < (6 * (i 0).val + (i 2).val / 128) % 6 * 128 + 128
    omega

/-! ## The array -/

/-- THE ARRAY after the call's last write-back is the specification's attention output of the array it read. -/
theorem fin1_eq (c : Dev nD) : fin1 V c = G1 V c :=
  (dat1 V c).arrAt_eq_of_cover 3 (G1 V c) (fun t _ => flushed1_eq V c t) cover1

theorem final1 (c : Dev nD) (b : Fin 8) (n : Fin 1024) (i : Fin 768) :
    fin1 V c (ix3 b n i)
      = Cert.AttnSpec.att (fun b n o => rV5 V c (ix3 b n o)) (Cert.AttnSpec.scoreBefore (fun b n o => rV5 V c (ix3 b n o))) b n i := by
  rw [fin1_eq]
  rfl

end Cert.KernelIdeal.HandAttn

end
-- ==== Proof.IVal2.lean ====
/-
  What the last (output projection) matrix-product call leaves in its output array, at the extended reals.

  The call walks 16 grid points. Point t loads rows 512·t … 512·t + 511 of the left array (an [8192, 768] matrix)
  and the whole right array (a [768, 768] matrix), multiplies the two blocks into a zero accumulator and stores the [512, 768] result as rows 512·t … 512·t + 511
  of the output. Entry (p, e) of a point's result is Σ_k L(512·t + p, k) · R(k, e): the same sum the product of the two
  WHOLE arrays has at (512·t + p, e). Every output row r lies in the block of exactly the point r / 512, so after the
  last point the output array is the product of the two arrays the call found, entry by entry.
-/
import proofs.«140358_j16647293239989_2_alg».proof.Proof.IData
import proofs.«140358_j16647293239989_2_alg».proof.Proof.IRead
import proofs.«140358_j16647293239989_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-- The offsets (0, 0) of a whole-block load or store. -/
theorem zero_off2 : (![0, 0] : Fin 2 → Nat) = fun _ => 0 := funext fun a => by fin_cases a <;> rfl

/-- The product of an [8192, 768] array and a [768, 768] array, entry by entry. -/
def prod2 (a : S8192x768.Idx → EReal) (b : S768x768.Idx → EReal) : S8192x768.Idx → EReal :=
  fun i => ∑ k : Fin 768, a (ix2 (i 0 : Fin 8192) k) * b (ix2 k (i 1 : Fin 768))

/-- The product array at entry (r, o). -/
theorem prod2_apply (a : S8192x768.Idx → EReal) (b : S768x768.Idx → EReal) (r : Fin 8192) (o : Fin 768) :
    prod2 a b (ix2 r o) = ∑ k : Fin 768, a (ix2 r k) * b (ix2 k o) := rfl

/-- The body's stored value at entry (p, e) of the block: row p of the left block against column e of the right
    block. -/
theorem pay2_apply (x0 : Vec Ideal S512x768 .bf16) (x1 : Vec Ideal S768x768 .bf16) (p : Fin 512) (e : Fin 768) :
    (k2_pay1 x0 x1 : S512x768.Idx → EReal) (ix2 p e) = ∑ k : Fin 768, x0 (ix2 p k) * x1 (ix2 k e) := by
  unfold k2_pay1
  simp only [shapeCast_self]
  exact matmul_plain_zero_apply (φ₁ := .bf16) (φ₂ := .bf16) 512 768 768 none x0 x1 p e

/-- If the left block is rows n·512 … n·512 + 511 of `a` and the right block is all of `b`, entry `j` of the body's
    stored value is the product array's entry n·512 rows further down. -/
theorem point2 (x0 : Vec Ideal S512x768 .bf16) (x1 : Vec Ideal S768x768 .bf16)
    (a : S8192x768.Idx → EReal) (b : S768x768.Idx → EReal) (n : Nat)
    (h0 : ∀ (y : S512x768.Idx) (z : S8192x768.Idx), (z 0).val = n * 512 + (y 0).val → (z 1).val = (y 1).val → x0 y = a z)
    (h1 : ∀ y : S768x768.Idx, x1 y = b y)
    (j : S512x768.Idx) (i : S8192x768.Idx) (hi0 : (i 0).val = n * 512 + (j 0).val) (hi1 : (i 1).val = (j 1).val) :
    (k2_pay1 x0 x1 : S512x768.Idx → EReal) j = prod2 a b i := by
  obtain ⟨p, e, rfl⟩ : ∃ (p : Fin 512) (e : Fin 768), j = ix2 p e := ⟨j 0, j 1, eq_ix2 j⟩
  rw [pay2_apply]
  unfold prod2
  refine Finset.sum_congr rfl fun k _ => ?_
  have he : (i 1 : Fin 768) = e := Fin.ext hi1
  rw [h0 (ix2 p k) (ix2 (i 0 : Fin 8192) k) hi0 rfl, h1, he]

/-- The index maps over the grid: point t takes row block t of the left array and of the output, and the whole
    right array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t, entry y, is the left array's entry in row t·512 + y₀, same column. -/
theorem lhs_block2 (c : Dev nD) (t : Fin cfg2.N) (y : S512x768.Idx) (z : S8192x768.Idx)
    (hz0 : (z 0).val = win2_2.index t (0 : Fin 2) * 512 + (y 0).val) (hz1 : (z 1).val = (y 1).val) :
    (iblk2 V c 0 t : Vec Ideal S512x768 .bf16) y = rV7 V c z := by
  obtain ⟨e0, e1, e2, e3, e4, e5⟩ := idx_facts2 t
  unfold iblk2
  rw [View.read_apply]
  show V c main_v7 (((cfg2.win 0).blk t).view.emb y) = V c main_v7 z
  congr 1
  funext a
  apply Fin.ext
  match a with
  | ⟨0, _⟩ => show win2_0.index t (0 : Fin 2) * 512 + 1 * (y 0).val = (z 0).val; omega
  | ⟨1, _⟩ => show win2_0.index t (1 : Fin 2) * 768 + 1 * (y 1).val = (z 1).val; omega

/-- The right window's block at any point is the whole right array. -/
theorem rhs_block2 (c : Dev nD) (t : Fin cfg2.N) (y : S768x768.Idx) :
    (iblk2 V c 1 t : Vec Ideal S768x768 .bf16) y = rV9 V c y := by
  obtain ⟨e0, e1, e2, e3, e4, e5⟩ := idx_facts2 t
  unfold iblk2
  rw [View.read_apply]
  show V c main_v9 (((cfg2.win 1).blk t).view.emb y) = V c main_v9 y
  congr 1
  funext a
  apply Fin.ext
  match a with
  | ⟨0, _⟩ => show win2_1.index t (0 : Fin 2) * 768 + 1 * (y 0).val = (y 0).val; omega
  | ⟨1, _⟩ => show win2_1.index t (1 : Fin 2) * 768 + 1 * (y 1).val = (y 1).val; omega

/-- What point t writes back is block t of the product of the two arrays as the call finds them. -/
theorem flushed2_eq (c : Dev nD) (t : Fin cfg2.N) :
    (dat2 V c).flushed 2 t
      = ((cfg2.win 2).blk t).view.read (Elt Ideal) (prod2 (rV7 V c) (rV9 V c)) := by
  show (cfg2.win 2).cut (grid2.coords t) ((dat2 V c).after 2 t) = _
  rw [after2_2]
  unfold out2_2
  rw [View.canon_unit_zero zero_off2]
  simp only [View.ld_unit_zero (S := S512x768) zero_off2, View.ld_unit_zero (S := S768x768) zero_off2]
  funext j
  show (k2_pay1 (iblk2 V c 0 t) (iblk2 V c 1 t) : S512x768.Idx → EReal) j
    = prod2 (rV7 V c) (rV9 V c) (((cfg2.win 2).blk t).view.emb j)
  refine point2 (iblk2 V c 0 t) (iblk2 V c 1 t) (rV7 V c) (rV9 V c) (win2_2.index t (0 : Fin 2))
    (fun y z h0 h1 => lhs_block2 V c t y z h0 h1) (fun y => rhs_block2 V c t y) j _ ?_ ?_
  · show win2_2.index t (0 : Fin 2) * 512 + 1 * (j 0).val = win2_2.index t (0 : Fin 2) * 512 + (j 0).val
    omega
  · obtain ⟨e0, e1, e2, e3, e4, e5⟩ := idx_facts2 t
    show win2_2.index t (1 : Fin 2) * 768 + 1 * (j 1).val = (j 1).val
    omega

/-- An index of the output array is in point t's block iff each coordinate is in the block's range on its axis. -/
theorem mem_blk2 (t : Fin cfg2.N) (i : S8192x768.Idx) :
    i ∈ ((cfg2.win 2).blk t).view.set ↔ ∀ a : Fin 2, win2_2.index t a * S512x768.size a ≤ (i a).val ∧ (i a).val < win2_2.index t a * S512x768.size a + S512x768.size a := by
  show i ∈ ((View.whole main_v10).slice (win2_2.rect t)).set ↔ _
  rw [View.set_slice_whole, Rect.mem_set_unit]
  exact Iff.rfl

/-- Row r of the output lies in the block of point r / 512, and every point writes its block back. -/
theorem cover2 (i : S8192x768.Idx) :
    ∃ t : Fin cfg2.N, (cfg2.win 2).flush t = true ∧ i ∈ ((cfg2.win 2).blk t).view.set := by
  have hi0 : (i 0).val < 8192 := (i 0).isLt
  have hi1 : (i 1).val < 768 := (i 1).isLt
  have hN : cfg2.N = 16 := N_2
  let t : Fin cfg2.N := ⟨(i 0).val / 512, by rw [hN]; omega⟩
  obtain ⟨e0, e1, e2, e3, e4, e5⟩ := idx_facts2 t
  have ht : t.val = (i 0).val / 512 := rfl
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 768 ≤ (i 1).val ∧ (i 1).val < win2_2.index t (1 : Fin 2) * 768 + 768; omega

/-- The call's output array after its last point: the product of the two arrays the call found. -/
theorem arr2_eq (c : Dev nD) : fin2 V c = prod2 (rV7 V c) (rV9 V c) :=
  (dat2 V c).arrAt_eq_of_cover 2 (prod2 (rV7 V c) (rV9 V c)) (fun t _ => flushed2_eq V c t) cover2

/-- Entry (r, o) of the call's output array: row r of the left array against column o of the right array. -/
theorem final2 (c : Dev nD) (r : Fin 8192) (o : Fin 768) :
    fin2 V c (ix2 r o) = ∑ k : Fin 768, rV7 V c (ix2 r k) * rV9 V c (ix2 k o) := by
  rw [arr2_eq]
  rfl

end Cert.KernelIdeal.HandValue

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.IGlue.lean ====
/-
  What the host operations between the three pallas_calls do to the arrays, entry by entry, on the extended reals
  (a rounding to a narrower format is the identity there): the activations [8,1024,768] are folded to rows
  `1024·b + n` of an [8192,768] matrix; each weight is transposed; the projected q/k/v matrix [8192,2304] is unfolded
  back to [8,1024,2304]; the attention output [8,1024,768] is folded to [8192,768]; the result [8192,768] is unfolded
  to [8,1024,768].
-/
import proofs.«140358_j16647293239989_2_alg».proof.Proof.IChain
import proofs.«140358_j16647293239989_2_alg».proof.Proof.IRead
import proofs.«140358_j16647293239989_2_alg».proof.Proof.LibRank3
import Idealize.ShloMosaic.Lib.ValueLayout
import Idealize.ShloMosaic.Lib.ValueIdx
import Idealize.ShloMosaic.Lib.Pipeline.Value
import Idealize.ShloMosaic.Lib.StableHlo.Run

noncomputable section

namespace Cert.KernelIdeal.HandGlue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.LibRank3

variable (m : (ℓ : Loc nD τ sig) → Buf (Elt Ideal) ℓ) (c : Dev nD)

/-- Row `1024·b + n` of a matrix of 8192 rows. -/
abbrev row (b : Fin 8) (n : Fin 1024) : Fin 8192 := flat 8192 (by norm_num) b n

/-- The three argument arrays as the launch memory holds them. -/
abbrev arg0 : S8x1024x768.Idx → EReal := W0 m c (Proc.devRef .tc main_arg0)
abbrev arg1 : S2304x768.Idx → EReal := W0 m c (Proc.devRef .tc main_arg1)
abbrev arg2 : S768x768.Idx → EReal := W0 m c (Proc.devRef .tc main_arg2)
/-- The result array at the return. -/
abbrev res : S8x1024x768.Idx → EReal := W7 m c (Proc.devRef .tc main_v11)

/-- The folded activations: row `1024·b + n` is the activations' row `(b, n)`. -/
theorem v1_apply (b : Fin 8) (n : Fin 1024) (k : Fin 768) :
    rV1 (V1 m) c (ix2 (row b n) k) = arg0 m c (ix3 b n k) := by
  have e : @Eq (FVec Ideal S8192x768 .bf16) (V1 m c main_v1)
      (truncf (F := Ideal) .bf16 (shapeCast S8192x768 (arg0 m c) shapeCasts_S8x1024x768_S8192x768) bitsLt_bf16_f32) := by
    dsimp only [V1, W1, hostOps0]; after_results <;> rfl
  show (V1 m c main_v1 : FVec Ideal S8192x768 .bf16) (ix2 (row b n) k) = _
  rw [e, truncf_apply]
  exact cast_abc_nc 8192 (by norm_num) _ _ b n k

/-- The first weight transposed. -/
theorem v3_apply (k : Fin 768) (o : Fin 2304) :
    rV3 (V1 m) c (ix2 k o) = arg1 m c (ix2 o k) := by
  have e : @Eq (FVec Ideal S768x2304 .bf16) (V1 m c main_v3)
      (truncf (F := Ideal) .bf16 (transpose S768x2304 [1, 0] (arg1 m c) transposes_S2304x768_S768x2304_1_0) bitsLt_bf16_f32) := by
    dsimp only [V1, W1, hostOps0]; after_results <;> rfl
  show (V1 m c main_v3 : FVec Ideal S768x2304 .bf16) (ix2 k o) = _
  rw [e, truncf_apply]
  exact transpose_ix2_apply _ _ k o

/-- The projected q/k/v matrix unfolded: entry `(b, n, o)` is row `1024·b + n`, column `o` of what call 0 left. -/
theorem v5_apply (b : Fin 8) (n : Fin 1024) (o : Fin 2304) :
    rV5 (V3 m) c (ix3 b n o) = fin0 (V1 m) c (ix2 (row b n) o) := by
  have e : @Eq (FVec Ideal S8x1024x2304 .bf16) (V3 m c main_v5)
      (shapeCast S8x1024x2304 (W2 m c (Proc.devRef .tc main_v4) : FVec Ideal S8192x2304 .bf16) shapeCasts_S8192x2304_S8x1024x2304) := by
    dsimp only [V3, W3, hostOps1]; after_results <;> rfl
  show (V3 m c main_v5 : FVec Ideal S8x1024x2304 .bf16) (ix3 b n o) = _
  rw [e, W2_out]
  exact cast_nc_abc 8192 (by norm_num) _ _ b n o

/-- The attention output folded: row `1024·b + n` is what call 1 left at `(b, n, ·)`. -/
theorem v7_apply (b : Fin 8) (n : Fin 1024) (i : Fin 768) :
    rV7 (V5 m) c (ix2 (row b n) i) = fin1 (V3 m) c (ix3 b n i) := by
  have e : @Eq (FVec Ideal S8192x768 .bf16) (V5 m c main_v7)
      (shapeCast S8192x768 (W4 m c (Proc.devRef .tc main_v6) : FVec Ideal S8x1024x768 .bf16) shapeCasts_S8x1024x768_S8192x768) := by
    dsimp only [V5, W5, hostOps2]; after_results <;> rfl
  show (V5 m c main_v7 : FVec Ideal S8192x768 .bf16) (ix2 (row b n) i) = _
  rw [e, W4_out]
  exact cast_abc_nc 8192 (by norm_num) _ _ b n i

/-- The second weight transposed. -/
theorem v9_apply (i j : Fin 768) :
    rV9 (V5 m) c (ix2 i j) = arg2 m c (ix2 j i) := by
  have e : @Eq (FVec Ideal S768x768 .bf16) (V5 m c main_v9)
      (truncf (F := Ideal) .bf16 (transpose S768x768 [1, 0] (arg2 m c) transposes_S768x768_S768x768_1_0) bitsLt_bf16_f32) := by
    dsimp only [V5, W5, hostOps2]; after_results <;> rfl
  show (V5 m c main_v9 : FVec Ideal S768x768 .bf16) (ix2 i j) = _
  rw [e, truncf_apply]
  exact transpose_ix2_apply _ _ i j

/-- The result unfolded: entry `(b, n, j)` is row `1024·b + n`, column `j` of what call 2 left. -/
theorem v11_apply (b : Fin 8) (n : Fin 1024) (j : Fin 768) :
    res m c (ix3 b n j) = fin2 (V5 m) c (ix2 (row b n) j) := by
  have e : @Eq (FVec Ideal S8x1024x768 .f32) (W7 m c (Proc.devRef .tc main_v11))
      (shapeCast S8x1024x768 (W6 m c (Proc.devRef .tc main_v10) : FVec Ideal S8192x768 .f32) shapeCasts_S8192x768_S8x1024x768) := by
    dsimp only [W7, hostOps3]; after_results <;> rfl
  show (W7 m c (Proc.devRef .tc main_v11) : FVec Ideal S8x1024x768 .f32) (ix3 b n j) = _
  rw [e, W6_out]
  exact cast_nc_abc 8192 (by norm_num) _ _ b n j

end Cert.KernelIdeal.HandGlue

end
-- ==== Proof.IKernelIsSpec.lean ====
/-
  The kernel program's result array, entry by entry, is the specification with the scale folded into the query rows:
  call 0 leaves the q/k/v projection of the folded activations, call 1 the attention of that projection, call 2 the
  output projection of the folded attention output, and the host's folds, unfolds and transposes in between only
  rename entries.
-/
import proofs.«140358_j16647293239989_2_alg».proof.Proof.IGlue
import proofs.«140358_j16647293239989_2_alg».proof.Proof.Spec

noncomputable section

namespace Cert.KernelIdeal.HandGlue

open Idealize.ShloMosaic Idealize.ShloMosaic.TcCoe Idealize.ShloMosaic.ValueIdx
open Idealize.SL Idealize.SL.Sem
open Cert.KernelIdeal Cert.KernelIdeal.Gen Cert.KernelIdeal.Hand Cert.LibRank3 Cert.AttnSpec

variable (m : (ℓ : Loc nD τ sig) → Buf (Elt Ideal) ℓ) (c : Dev nD)

/-- The argument arrays over plain coordinates. -/
abbrev X : Fin 8 → Fin 1024 → Fin 768 → EReal := fun b n k => arg0 m c (ix3 b n k)
abbrev WQ : Fin 2304 → Fin 768 → EReal := fun o k => arg1 m c (ix2 o k)
abbrev WP : Fin 768 → Fin 768 → EReal := fun j i => arg2 m c (ix2 j i)

section
variable
  (h0 : ∀ (V : (c : Dev nD) → (b : Ref sig .tc) → Buf (Elt Ideal) ((c : Thread nD τ).loc b)) (c : Dev nD) (r : Fin 8192) (o : Fin 2304),
    fin0 V c (ix2 r o) = ∑ k : Fin 768, rV1 V c (ix2 r k) * rV3 V c (ix2 k o))
  (h1 : ∀ (V : (c : Dev nD) → (b : Ref sig .tc) → Buf (Elt Ideal) ((c : Thread nD τ).loc b)) (c : Dev nD) (b : Fin 8) (n : Fin 1024) (i : Fin 768),
    fin1 V c (ix3 b n i) = att (fun b n o => rV5 V c (ix3 b n o)) (scoreBefore (fun b n o => rV5 V c (ix3 b n o))) b n i)
  (h2 : ∀ (V : (c : Dev nD) → (b : Ref sig .tc) → Buf (Elt Ideal) ((c : Thread nD τ).loc b)) (c : Dev nD) (r : Fin 8192) (o : Fin 768),
    fin2 V c (ix2 r o) = ∑ k : Fin 768, rV7 V c (ix2 r k) * rV9 V c (ix2 k o))

include h0 in
/-- What call 1 reads is the q/k/v projection of the arguments. -/
theorem v5_is_qkv : (fun b n o => rV5 (V3 m) c (ix3 b n o)) = qkv (X m c) (WQ m c) := by
  funext b n o
  rw [v5_apply, h0 (V1 m) c (row b n) o]
  unfold qkv
  refine Finset.sum_congr rfl fun k _ => ?_
  rw [v1_apply, v3_apply]

include h0 h1 h2 in
/-- The kernel program's result at `(b, n, j)`. -/
theorem kernel_apply (b : Fin 8) (n : Fin 1024) (j : Fin 768) :
    res m c (ix3 b n j) = outBefore (X m c) (WQ m c) (WP m c) b n j := by
  rw [v11_apply, h2 (V5 m) c (row b n) j]
  unfold outBefore proj
  refine Finset.sum_congr rfl fun i _ => ?_
  rw [v7_apply, v9_apply, h1 (V3 m) c b n i, v5_is_qkv m c h0]

include h0 h1 h2 in
/-- The kernel program's result array is the specification's function of the arguments. -/
theorem kernel_eq :
    res m c = fun i => out (X m c) (WQ m c) (WP m c) (i 0) (i 1) (i 2) := by
  funext i
  obtain ⟨b, n, j, rfl⟩ : ∃ (b : Fin 8) (n : Fin 1024) (j : Fin 768), i = ix3 b n j := ⟨i 0, i 1, i 2, eq_ix3 i⟩
  rw [kernel_apply m c h0 h1 h2, outBefore_eq]

end

end Cert.KernelIdeal.HandGlue

end
-- ==== Proof.LibMaxReduce4.lean ====
/-
  A maximum reduction over the LAST axis of an `[a, b, c, d]` array, read at an index, at the ideal values.

  On the extended reals the host's one-operand reduce with a maximum body is, at the index `(p, q, r)` of the result,
  the running maximum of the `d` entries `x (p, q, r, k)` from the initial value's element: a fold of `max` whose
  order does not matter.
-/
import proofs.«140358_j16647293239989_2_alg».proof.Proof.LibMaxReduce

noncomputable section

namespace Cert.LibMaxReduce

open Idealize.ShloMosaic Idealize.ShloMosaic.ValueIdx

/-- The host's one-operand reduce with a maximum body over the LAST axis of an `[a, b, c, d]` array, read at
    `(p, q, r)`: the running maximum of that line's `d` entries from the initial value's element. -/
theorem hostReduce_maximumf_lastAxis4_apply {a b c d : ℕ} {u : Shape} (x : (⟨4, ![a, b, c, d]⟩ : Shape).Idx → EReal)
    (init : u.Idx → EReal)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (p : Fin a) (q : Fin b) (r : Fin c) :
    Host.reduce (FloatOps.maximumf (F := Ideal) (φ := .f32)) x init h' hu (ix3 p q r)
      = foldMax (init (Shape.Idx.first hu)) (fun k : Fin d => x (ix4 p q r k)) := by
  refine (Host.reduce_eq_fold_single (FloatOps.maximumf (F := Ideal) (φ := .f32)) x init h' h hu (ix3 p q r)).trans ?_
  unfold foldMax
  refine congrArg (fun f : Fin d → EReal => Finset.fold max (init (Shape.Idx.first hu)) f Finset.univ) (funext fun k => congrArg x ?_)
  funext ax; apply Fin.ext
  match ax with
  | ⟨0, _⟩ => rfl
  | ⟨1, _⟩ => rfl
  | ⟨2, _⟩ => rfl
  | ⟨3, _⟩ => rfl

end Cert.LibMaxReduce

end
-- ==== Proof.RefStages.lean ====
/-
  The reference program read at an index, one stage at a time: each intermediate array of the program, at an index
  written by its coordinates, is the specification's function of the same name at those coordinates.

  The projection `qkv b n o = Σ_c x b n c · wq o c` is regrouped `[8,1024,2304] → [8,1024,3,12,64]` (row-major, so
  column `o = 768·s + 64·h + d` becomes `(s, h, d)`), its axes are permuted to `[3,8,12,1024,64]`, and the three
  slots are cut out: the query, key and value rows of head `h`. The score is the dot product of a query row and a key
  row times the scale; a row of scores is shifted by its maximum, exponentiated, normalised by its sum; the weights
  average the value rows; the heads' results are put side by side (column `i = 64·h + d`, so `h = i / 64` and
  `d = i % 64`).
-/
import proofs.«140358_j16647293239989_2_alg».proof.Proof.Gen.ReferenceIdeal.Read
import proofs.«140358_j16647293239989_2_alg».proof.Proof.Spec
import proofs.«140358_j16647293239989_2_alg».proof.Proof.LibMaxReduce4

noncomputable section

namespace Cert.ReferenceIdeal.RefValue

open Cert.ReferenceIdeal.Gen Idealize.ShloMosaic Idealize.ShloMosaic.ValueIdx Cert.AttnSpec Cert.LibMaxReduce

/-! ## Index arithmetic of the layout operations -/

/-- Regrouping then permuting: entry `(s, b, h, n, d)` of the permuted array is entry `(b, n, 768·s + 64·h + d)` of
    the projection. -/
theorem idx_v1_v2_eq (s : Fin 3) (b : Fin 8) (h : Fin 12) (n : Fin 1024) (d : Fin 64) :
    Read.idx_main_v1 (Read.idx_main_v2 (ix5 s b h n d)) = ix3 b n (col s h d) := by
  funext a; apply Fin.ext
  have hs := s.isLt; have hb := b.isLt; have hh := h.isLt; have hn := n.isLt; have hd := d.isLt
  match a with
  | ⟨0, _⟩ => show ((((b.val * 1024 + n.val) * 3 + s.val) * 12 + h.val) * 64 + d.val) / 2359296 = b.val; omega
  | ⟨1, _⟩ => show ((((b.val * 1024 + n.val) * 3 + s.val) * 12 + h.val) * 64 + d.val) / 2304 % 1024 = n.val; omega
  | ⟨2, _⟩ => show ((((b.val * 1024 + n.val) * 3 + s.val) * 12 + h.val) * 64 + d.val) % 2304 = s.val * 768 + h.val * 64 + d.val; omega

/-- Dropping the unit slot axis: entry `(b, h, n, d)` of a `[8,12,1024,64]` array is entry `(0, b, h, n, d)` of the
    `[1,8,12,1024,64]` one. -/
theorem idx_v4_eq (b : Fin 8) (h : Fin 12) (n : Fin 1024) (d : Fin 64) :
    Read.idx_main_v4 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v6_eq (b : Fin 8) (h : Fin 12) (n : Fin 1024) (d : Fin 64) :
    Read.idx_main_v6 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v8_eq (b : Fin 8) (h : Fin 12) (n : Fin 1024) (d : Fin 64) :
    Read.idx_main_v8 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

/-- A slot's slice: entry `(0, b, h, n, d)` is entry `(s, b, h, n, d)` of the permuted array. -/
theorem idx_v3_eq (b : Fin 8) (h : Fin 12) (n : Fin 1024) (d : Fin 64) :
    Read.idx_main_v3 (ix5 (0 : Fin 1) b h n d) = ix5 (0 : Fin 3) b h n d :=
  funext fun a => Fin.ext (by match a with | ⟨0, _⟩ => rfl | ⟨1, _⟩ => rfl | ⟨2, _⟩ => rfl | ⟨3, _⟩ => rfl | ⟨4, _⟩ => rfl)

theorem idx_v5_eq (b : Fin 8) (h : Fin 12) (n : Fin 1024) (d : Fin 64) :
    Read.idx_main_v5 (ix5 (0 : Fin 1) b h n d) = ix5 (1 : Fin 3) b h n d :=
  funext fun a => Fin.ext (by match a with | ⟨0, _⟩ => rfl | ⟨1, _⟩ => rfl | ⟨2, _⟩ => rfl | ⟨3, _⟩ => rfl | ⟨4, _⟩ => rfl)

theorem idx_v7_eq (b : Fin 8) (h : Fin 12) (n : Fin 1024) (d : Fin 64) :
    Read.idx_main_v7 (ix5 (0 : Fin 1) b h n d) = ix5 (2 : Fin 3) b h n d :=
  funext fun a => Fin.ext (by match a with | ⟨0, _⟩ => rfl | ⟨1, _⟩ => rfl | ⟨2, _⟩ => rfl | ⟨3, _⟩ => rfl | ⟨4, _⟩ => rfl)

/-- A row's statistic kept as a unit column and spread over the row: entry `(b, h, n, m)` reads entry `(b, h, n)`. -/
theorem idx_v15_v16_eq (b : Fin 8) (h : Fin 12) (n m : Fin 1024) :
    Read.idx_main_v15 (Read.idx_main_v16 (ix4 b h n m)) = ix3 b h n :=
  funext fun a => Fin.ext (by match a with | ⟨0, _⟩ => rfl | ⟨1, _⟩ => rfl | ⟨2, _⟩ => rfl)

theorem idx_v20_v21_eq (b : Fin 8) (h : Fin 12) (n m : Fin 1024) :
    Read.idx_main_v20 (Read.idx_main_v21 (ix4 b h n m)) = ix3 b h n :=
  funext fun a => Fin.ext (by match a with | ⟨0, _⟩ => rfl | ⟨1, _⟩ => rfl | ⟨2, _⟩ => rfl)

/-- Heads side by side: entry `(b, n, i)` of the `[8,1024,768]` array is entry `(b, i / 64, n, i % 64)` of the
    per-head one. -/
theorem idx_v24_v25_eq (b : Fin 8) (n : Fin 1024) (i : Fin 768) (hh : i.val / 64 < 12) (hd : i.val % 64 < 64) :
    Read.idx_main_v24 (Read.idx_main_v25 (ix3 b n i)) = ix4 b (⟨i.val / 64, hh⟩ : Fin 12) n (⟨i.val % 64, hd⟩ : Fin 64) := by
  funext a; apply Fin.ext
  have hb := b.isLt; have hn := n.isLt; have hi := i.isLt
  match a with
  | ⟨0, _⟩ => show ((b.val * 1024 + n.val) * 768 + i.val) / 786432 = b.val; omega
  | ⟨1, _⟩ => show ((b.val * 1024 + n.val) * 768 + i.val) / 64 % 12 = i.val / 64; omega
  | ⟨2, _⟩ => show ((b.val * 1024 + n.val) * 768 + i.val) / 768 % 1024 = n.val; omega
  | ⟨3, _⟩ => show ((b.val * 1024 + n.val) * 768 + i.val) % 64 = i.val % 64; omega

/-! ## The stages -/

section
variable (a0 : S8x1024x768.Idx → EReal) (a1 : S2304x768.Idx → EReal)

/-- The projection and the scores of the two argument arrays, over plain coordinates. -/
abbrev qkvs : Fin 8 → Fin 1024 → Fin 2304 → EReal := qkv (fun b n c => a0 (ix3 b n c)) (fun o c => a1 (ix2 o c))
abbrev scores : Fin 8 → Fin 12 → Fin 1024 → Fin 1024 → EReal := scoreAfter (qkvs a0 a1)

/-- The projection: a sum over the channel. -/
theorem v0_at (b : Fin 8) (n : Fin 1024) (o : Fin 2304) :
    Read.val_main_v0 (F := Ideal) a0 a1 (ix3 b n o) = qkvs a0 a1 b n o := by
  rw [Read.val_main_v0_apply]
  show _ = ∑ c : Fin 768, a0 (ix3 b n c) * a1 (ix2 o c)
  refine Finset.sum_congr rfl fun k _ => ?_
  have el : Read.lidx_main_v0 (ix3 b n o) k = ix3 b n k := funext fun a => Fin.ext (by match a with | ⟨0, _⟩ => rfl | ⟨1, _⟩ => rfl | ⟨2, _⟩ => rfl)
  have er : Read.ridx_main_v0 (ix3 b n o) k = ix2 o k := funext fun a => Fin.ext (by match a with | ⟨0, _⟩ => rfl | ⟨1, _⟩ => rfl)
  rw [el, er]

/-- The regrouped and permuted projection. -/
theorem v2_at (s : Fin 3) (b : Fin 8) (h : Fin 12) (n : Fin 1024) (d : Fin 64) :
    Read.val_main_v2 (F := Ideal) a0 a1 (ix5 s b h n d) = qkvs a0 a1 b n (col s h d) := by
  rw [Read.val_main_v2_apply, Read.val_main_v1_apply, idx_v1_v2_eq, v0_at]

/-- The query rows: entry `(b, h, n, d)` is the projection's column of slot 0, head `h`, lane `d`. -/
theorem v4_at (b : Fin 8) (h : Fin 12) (n : Fin 1024) (d : Fin 64) :
    Read.val_main_v4 (F := Ideal) a0 a1 (ix4 b h n d) = qkvs a0 a1 b n (col 0 h d) := by
  rw [Read.val_main_v4_apply, Read.val_main_v3_apply, idx_v4_eq, idx_v3_eq, v2_at]

/-- The key rows: entry `(b, h, n, d)` is the projection's column of slot 1, head `h`, lane `d`. -/
theorem v6_at (b : Fin 8) (h : Fin 12) (n : Fin 1024) (d : Fin 64) :
    Read.val_main_v6 (F := Ideal) a0 a1 (ix4 b h n d) = qkvs a0 a1 b n (col 1 h d) := by
  rw [Read.val_main_v6_apply, Read.val_main_v5_apply, idx_v6_eq, idx_v5_eq, v2_at]

/-- The value rows: entry `(b, h, n, d)` is the projection's column of slot 2, head `h`, lane `d`. -/
theorem v8_at (b : Fin 8) (h : Fin 12) (n : Fin 1024) (d : Fin 64) :
    Read.val_main_v8 (F := Ideal) a0 a1 (ix4 b h n d) = qkvs a0 a1 b n (col 2 h d) := by
  rw [Read.val_main_v8_apply, Read.val_main_v7_apply, idx_v8_eq, idx_v7_eq, v2_at]

/-- The scaled score of query token `n` against key token `m`. -/
theorem v11_at (b : Fin 8) (h : Fin 12) (n m : Fin 1024) :
    Read.val_main_v11 (F := Ideal) a0 a1 (ix4 b h n m) = scores a0 a1 b h n m := by
  rw [Read.val_main_v11_apply, Read.val_main_v9_apply, Read.val_main_v10_apply, Read.val_main_cst_apply,
    Ideal.mulf_def, Ideal.ofBits_def]
  show _ = (∑ d : Fin 64, qkvs a0 a1 b n (col 0 h d) * qkvs a0 a1 b m (col 1 h d)) * scale
  refine congrArg (· * scale) (Finset.sum_congr rfl fun k _ => ?_)
  have el : Read.lidx_main_v9 (ix4 b h n m) k = ix4 b h n k := funext fun a => Fin.ext (by match a with | ⟨0, _⟩ => rfl | ⟨1, _⟩ => rfl | ⟨2, _⟩ => rfl | ⟨3, _⟩ => rfl)
  have er : Read.ridx_main_v9 (ix4 b h n m) k = ix4 b h m k := funext fun a => Fin.ext (by match a with | ⟨0, _⟩ => rfl | ⟨1, _⟩ => rfl | ⟨2, _⟩ => rfl | ⟨3, _⟩ => rfl)
  rw [el, er, v4_at, v6_at]

/-- The row maximum: the reduce's running maximum from -∞, joined once more with -∞. -/
theorem v14_at (b : Fin 8) (h : Fin 12) (n : Fin 1024) :
    Read.val_main_v14 (F := Ideal) a0 a1 (ix3 b h n) = rowMax (scores a0 a1) b h n := by
  have h12 : Read.val_main_v12 (F := Ideal) a0 a1 (ix3 b h n)
      = foldMax negInf (fun m : Fin 1024 => scores a0 a1 b h n m) := by
    unfold Read.val_main_v12
    rw [hostReduce_maximumf_lastAxis4_apply _ _ reducesTo_S8x12x1024x1024_S8x12x1024_d3 (by decide) h_S_ b h n,
      Read.val_main_cst_0_apply, Ideal.ofBits_def]
    exact congrArg (foldMax negInf) (funext fun m => v11_at a0 a1 b h n m)
  rw [Read.val_main_v14_apply, Read.val_main_v13_apply, Read.val_main_cst_1_apply, Ideal.maximumf_def,
    Ideal.ofBits_def, h12]
  exact max_foldMax _ _

/-- The shifted exponential. -/
theorem v18_at (b : Fin 8) (h : Fin 12) (n m : Fin 1024) :
    Read.val_main_v18 (F := Ideal) a0 a1 (ix4 b h n m) = expo (scores a0 a1) b h n m := by
  rw [Read.val_main_v18_apply, Read.val_main_v17_apply, Read.val_main_v16_apply, Read.val_main_v15_apply,
    idx_v15_v16_eq, v14_at, v11_at, Ideal.hostUnary_exp_def, Ideal.subf_def]
  rfl

/-- The row sum: zero plus the sum of the row's exponentials. -/
theorem v19_at (b : Fin 8) (h : Fin 12) (n : Fin 1024) :
    Read.val_main_v19 (F := Ideal) a0 a1 (ix3 b h n) = rowSum (scores a0 a1) b h n := by
  rw [Read.val_main_v19_apply, Read.val_main_cst_2_apply, Ideal.ofBits_def, Ideal.ofBits_zero_f32, zero_add]
  show _ = ∑ m : Fin 1024, expo (scores a0 a1) b h n m
  refine Finset.sum_congr rfl fun k _ => ?_
  have e : Read.idx_main_v19 (ix3 b h n) k = ix4 b h n k := funext fun a => Fin.ext (by match a with | ⟨0, _⟩ => rfl | ⟨1, _⟩ => rfl | ⟨2, _⟩ => rfl | ⟨3, _⟩ => rfl)
  rw [e, v18_at]

/-- The weight: the exponential over the row sum. -/
theorem v22_at (b : Fin 8) (h : Fin 12) (n m : Fin 1024) :
    Read.val_main_v22 (F := Ideal) a0 a1 (ix4 b h n m) = weight (scores a0 a1) b h n m := by
  rw [Read.val_main_v22_apply, Read.val_main_v21_apply, Read.val_main_v20_apply, idx_v20_v21_eq, v19_at, v18_at,
    Ideal.hostDivf_def]
  rfl

/-- One head's output: the weights average the value rows. -/
theorem v23_at (b : Fin 8) (h : Fin 12) (n : Fin 1024) (d : Fin 64) :
    Read.val_main_v23 (F := Ideal) a0 a1 (ix4 b h n d) = headOut (qkvs a0 a1) (scores a0 a1) b h n d := by
  rw [Read.val_main_v23_apply]
  show _ = ∑ m : Fin 1024, weight (scores a0 a1) b h n m * qkvs a0 a1 b m (col 2 h d)
  refine Finset.sum_congr rfl fun k _ => ?_
  have el : Read.lidx_main_v23 (ix4 b h n d) k = ix4 b h n k := funext fun a => Fin.ext (by match a with | ⟨0, _⟩ => rfl | ⟨1, _⟩ => rfl | ⟨2, _⟩ => rfl | ⟨3, _⟩ => rfl)
  have er : Read.ridx_main_v23 (ix4 b h n d) k = ix4 b h k d := funext fun a => Fin.ext (by match a with | ⟨0, _⟩ => rfl | ⟨1, _⟩ => rfl | ⟨2, _⟩ => rfl | ⟨3, _⟩ => rfl)
  rw [el, er, v22_at, v8_at]

/-- The heads side by side. -/
theorem v25_at (b : Fin 8) (n : Fin 1024) (i : Fin 768) :
    Read.val_main_v25 (F := Ideal) a0 a1 (ix3 b n i) = att (qkvs a0 a1) (scores a0 a1) b n i := by
  rw [Read.val_main_v25_apply, Read.val_main_v24_apply,
    idx_v24_v25_eq b n i (by have := i.isLt; omega) (Nat.mod_lt _ (by norm_num)), v23_at]
  rfl

end

end Cert.ReferenceIdeal.RefValue

end
-- ==== Proof.RefIsSpec.lean ====
/-
  The reference program's result, index by index, is the specification's function of the three argument arrays.

  The last operation projects the side-by-side head outputs with the second weight:
  `out b n j = Σ_i att b n i · wp j i`; every earlier stage is read in the module of the stages.
-/
import proofs.«140358_j16647293239989_2_alg».proof.Proof.RefStages

noncomputable section

namespace Cert.ReferenceIdeal.RefValue

open Idealize.ShloMosaic Idealize.ShloMosaic.ValueIdx

/-- The reference's result at `(b, n, j)` is the specification's output there. -/
theorem ref_eq (a0 : S8x1024x768.Idx → EReal) (a1 : S2304x768.Idx → EReal) (a2 : S768x768.Idx → EReal)
    (b : Fin 8) (n : Fin 1024) (j : Fin 768) :
    Read.val_main_v26 (F := Ideal) a0 a1 a2 (ix3 b n j)
      = Cert.AttnSpec.out (fun b n c => a0 (ix3 b n c)) (fun o c => a1 (ix2 o c)) (fun j i => a2 (ix2 j i)) b n j := by
  rw [Read.val_main_v26_apply]
  show _ = ∑ i : Fin 768, Cert.AttnSpec.att (qkvs a0 a1) (scores a0 a1) b n i * a2 (ix2 j i)
  refine Finset.sum_congr rfl fun k _ => ?_
  have el : Read.lidx_main_v26 (ix3 b n j) k = ix3 b n k :=
    funext fun a => Fin.ext (by match a with | ⟨0, _⟩ => rfl | ⟨1, _⟩ => rfl | ⟨2, _⟩ => rfl)
  have er : Read.ridx_main_v26 (ix3 b n j) k = ix2 j k :=
    funext fun a => Fin.ext (by match a with | ⟨0, _⟩ => rfl | ⟨1, _⟩ => rfl)
  rw [el, er, v25_at]

/-- The same, as an equation of arrays: at every index, split into its coordinates. -/
theorem ref_fun_eq (a0 : S8x1024x768.Idx → EReal) (a1 : S2304x768.Idx → EReal) (a2 : S768x768.Idx → EReal) :
    Read.val_main_v26 (F := Ideal) a0 a1 a2
      = fun i : S8x1024x768.Idx => Cert.AttnSpec.out (fun b n c => a0 (ix3 b n c)) (fun o c => a1 (ix2 o c))
          (fun j i => a2 (ix2 j i)) (i 0) (i 1) (i 2) := by
  funext i
  obtain ⟨b, n, j, rfl⟩ : ∃ (b : Fin 8) (n : Fin 1024) (j : Fin 768), i = ix3 b n j := ⟨i 0, i 1, i 2, eq_ix3 i⟩
  exact ref_eq a0 a1 a2 b n j

end Cert.ReferenceIdeal.RefValue

end
-- ==== Proof.lean ====
/-
  Scaled dot-product attention over twelve heads, between two linear projections, computed by three tiled kernels
  (the q/k/v projection, the attention of two heads per grid point, the output projection) against the plain
  formula.

  On the extended reals every rounding is the identity, a tiled matrix product is the matrix product, and the folds,
  unfolds and transposes around the kernels only rename entries; so the kernel program's result is, entry by entry,
  the formula with the scale 1/8 multiplied into the query rows, while the reference multiplies the finished dot
  products by it. The scale is a nonnegative real, and multiplication by a nonnegative real distributes over any
  finite sum of extended reals, so the two results are one function of the arguments (no finiteness is needed).

  The three programs run to the end and leave their arguments as launched: the kernel programs by the pipelines'
  rule at each of the three calls (call 1 holds its one input array at three shares that compose to the full one),
  the reference as a straight line of host operations. The idealization rewrote nothing.
-/
import proofs.«140358_j16647293239989_2_alg».proof.Defs
import proofs.«140358_j16647293239989_2_alg».proof.Proof.Gen.Kernel
import proofs.«140358_j16647293239989_2_alg».proof.Proof.Gen.KernelIdeal
import proofs.«140358_j16647293239989_2_alg».proof.Proof.Gen.ReferenceIdeal
import proofs.«140358_j16647293239989_2_alg».proof.Proof.Gen.Pre_finite_inputs
import proofs.«140358_j16647293239989_2_alg».proof.Proof.Gen.ReferenceIdeal.Run
import proofs.«140358_j16647293239989_2_alg».proof.Proof.BRun
import proofs.«140358_j16647293239989_2_alg».proof.Proof.IRun
import proofs.«140358_j16647293239989_2_alg».proof.Proof.IArgs
import proofs.«140358_j16647293239989_2_alg».proof.Proof.IVal0
import proofs.«140358_j16647293239989_2_alg».proof.Proof.IVal1
import proofs.«140358_j16647293239989_2_alg».proof.Proof.IVal2
import proofs.«140358_j16647293239989_2_alg».proof.Proof.IKernelIsSpec
import proofs.«140358_j16647293239989_2_alg».proof.Proof.RefIsSpec
import Idealize.ShloMosaic.Adequacy
import Idealize.ShloMosaic.Init

noncomputable section

namespace Cert.Proof

open Idealize.ShloMosaic Idealize.ShloMosaic.TcCoe Idealize.SL.Sem

/-- An unscoped buffer of the idealized kernel program is among those the run's post speaks of. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m ρ _ => Cert.Kernel.Hand.frame m ρ

theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's function of the arguments in their result arrays. -/
theorem algebraic : Cert.algebraic_KernelIdeal_ReferenceIdeal := by
  intro m ρ m' ρ' _ hagree
  refine ⟨fun c => Cert.KernelIdeal.HandGlue.res m c, ?_, ?_⟩
  · exact (θ_run Cert.KernelIdeal.defs _ _).mono (fun r h c =>
      ⟨h c _ (mem_uc Cert.KernelIdeal.main_v11 (by decide)),
       (h c _ (mem_uc Cert.KernelIdeal.main_arg0 (by decide))).trans (Cert.KernelIdeal.Hand.W7_main_arg0 m c),
       (h c _ (mem_uc Cert.KernelIdeal.main_arg1 (by decide))).trans (Cert.KernelIdeal.Hand.W7_main_arg1 m c),
       (h c _ (mem_uc Cert.KernelIdeal.main_arg2 (by decide))).trans (Cert.KernelIdeal.Hand.W7_main_arg2 m c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v26 (F := Ideal) m' c = Cert.KernelIdeal.HandGlue.res m c
    rw [Cert.ReferenceIdeal.Read.val_main_v26_eq, Cert.ReferenceIdeal.RefValue.ref_fun_eq, (hagree c).1, (hagree c).2.1, (hagree c).2.2,
      Cert.KernelIdeal.HandGlue.kernel_eq m c Cert.KernelIdeal.HandValue.final0 Cert.KernelIdeal.HandAttn.final1
        Cert.KernelIdeal.HandValue.final2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
